-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S256x128 .f32) (main_arg5 : FVec F S256x128 .f32) (main_arg6 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg4
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : FVec F S256x256 .f32) (main_arg2 : FVec F S256x256 .f32) (main_arg3 : FVec F S256 .f32) (main_arg4 : FVec F S256x128 .f32) (main_arg5 : FVec F S256x128 .f32) (main_arg6 : FVec F S128 .f32) (main_arg7 : IVec S800000 32) (main_arg8 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S50000x128 : Shape := ⟨2, ![50000, 128]⟩
abbrev S5000x256 : Shape := ⟨2, ![5000, 256]⟩
abbrev S5000x128 : Shape := ⟨2, ![5000, 128]⟩
abbrev S800000x128 : Shape := ⟨2, ![800000, 128]⟩
abbrev S1x128 : Shape := ⟨2, ![1, 128]⟩

abbrev nBuf : Space → Nat
  | .hbm => 56
  | .vmem => 13
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x256, .f32⟩
  | .hbm, ⟨28, _⟩ => ⟨S_, .f32⟩
  | .hbm, ⟨29, _⟩ => ⟨S50000x256, .f32⟩
  | .hbm, ⟨30, _⟩ => ⟨S800000x1, .i32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S1x256, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S5000x256, .f32⟩
  | .local _ .vmem, ⟨3, _⟩ => ⟨S5000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x128, .f32⟩
  | .local _ .vmem, ⟨8, _⟩ => ⟨S256x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20_0 : Ref sig .tc := ⟨.hbm, 35, rfl⟩
abbrev main_v20_1 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x256.size a
  hwx0_1 : ∀ i : grid0.Coords, EltTy.bits .f32 = 32 ∨ (Rect.block (s := S50000x256) S5000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S50000x128 : Shape := ⟨2, ![50000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x128, .f32⟩
  | .hbm, ⟨5, _⟩ => ⟨S256x128, .f32⟩
  | .hbm, ⟨6, _⟩ => ⟨S128, .f32⟩
  | .hbm, ⟨7, _⟩ => ⟨S800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.LibRowBias.lean ====
/-
  A bias row added to every row of a `[B, n]` array, read at an index.

  * a flat vector `[n]` cast to a single row `[1, n]`: the same entry, lane by lane;
  * a single row `[1, n]` broadcast down `B` rows: every row holds the row's entries.

  Statements about indices only; the element type is arbitrary. Nothing here mentions a program.
-/
import Idealize.ShloMosaic.PureOps.Ideal
import Idealize.ShloMosaic.Lib.ValueIdx
import Idealize.ShloMosaic.Lib.Pipeline.Value

noncomputable section

namespace Cert.RowBias

open Idealize.ShloMosaic Idealize.ShloMosaic.ValueIdx

variable {α : Type}

/-- A flat vector cast to a single row holds, in lane `j`, the vector's entry `j`. -/
theorem castRow_apply {n : Nat} (v : (⟨1, ![n]⟩ : Shape).Idx → α)
    (h : Shape.ShapeCasts (⟨1, ![n]⟩ : Shape) (⟨2, ![1, n]⟩ : Shape)) (j : Fin n) :
    shapeCast (⟨2, ![1, n]⟩ : Shape) v h (ix2 (0 : Fin 1) j) = v (ix1 j) :=
  shapeCast_apply v h (ix2 (0 : Fin 1) j) (ix1 j) (by
    rw [Shape.rowMajor_val_one, Shape.rowMajor_val_two]
    show j.val = 0 * n + j.val
    omega)

/-- A single row broadcast down `B` rows holds the row's entry of lane `j` in lane `j` of every row. -/
theorem bcastRow_apply {B n : Nat} (y : (⟨2, ![1, n]⟩ : Shape).Idx → α)
    (h : Shape.Broadcasts (⟨2, ![1, n]⟩ : Shape) (⟨2, ![B, n]⟩ : Shape)) (p : Fin B) (j : Fin n) :
    broadcastTo (⟨2, ![B, n]⟩ : Shape) y h (ix2 p j) = y (ix2 (0 : Fin 1) j) :=
  broadcastTo_apply y h (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

end Cert.RowBias

end
-- ==== Proof.LibDenseRow.lean ====
/-
  A dense layer on one row of features, and its two spellings read at an entry.

  `denseRow x w b` is the affine image of a row `x` of `K` features under a `K x N` weight matrix `w` and a bias
  `b` of `N` entries: lane `c` holds the sum over `k` of `x k * w k c`, plus `b c`, on the extended reals.

  Two programs spell it differently.
  * A kernel multiplies a block `[B, K]` by the weights `[K, N]` in the matrix unit, into the zero accumulator, and
    adds a bias kept as one row `[1, N]` broadcast down the `B` rows.
  * A host program contracts `[B, K]` with `[K, N]` and adds a flat bias `[N]` laid first as a row `[1, N]` and
    then down the `B` rows.
  Row `p` of either result is `denseRow` of row `p` of the left operand: no entry of another row enters it. The
  products' dimension records enter only through how they place coordinates (the left operand read at (row, k), the
  right one at (k, column)); those placement facts are hypotheses, so the lemmas serve any record of that pattern.
  Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«145372_j29901562315015_2_alg».proof.Proof.LibPlainMatmul
import proofs.«145372_j29901562315015_2_alg».proof.Proof.LibHostRowOps
import proofs.«145372_j29901562315015_2_alg».proof.Proof.LibRowBias

noncomputable section

open scoped BigOperators

namespace Cert.DenseRow

open Idealize.ShloMosaic Idealize.ShloMosaic.ValueIdx

/-- The affine image of a row: lane `c` is the sum over `k` of `x k * w k c`, plus `b c`. -/
def denseRow {K N : Nat} (x : Fin K → EReal) (w : Fin K → Fin N → EReal) (b : Fin N → EReal) : Fin N → EReal :=
  fun c => (∑ k : Fin K, x k * w k c) + b c

variable {α : Type}

/-- A flat vector laid as a single row by the host's broadcast holds, in lane `j`, the vector's entry `j`. -/
theorem hostFlatRow_apply {n : Nat} (v : (⟨1, ![n]⟩ : Shape).Idx → α)
    (h : (⟨1, ![n]⟩ : Shape).BroadcastsInDim (⟨2, ![1, n]⟩ : Shape) ![1]) (j : Fin n) :
    broadcastInDim (⟨2, ![1, n]⟩ : Shape) ![1] h v (ix2 (0 : Fin 1) j) = v (ix1 j) :=
  broadcastInDim_apply _ h v (ix2 (0 : Fin 1) j) (ix1 j) (fun a => match a with
    | ⟨0, _⟩ => by
        show j.val = if n = 1 then 0 else j.val
        split
        · have := j.isLt; omega
        · rfl)

/-- A single row laid down `B` rows by the host's broadcast holds the row's lane `j` in lane `j` of every row. -/
theorem hostRowDown_apply {B n : Nat} (y : (⟨2, ![1, n]⟩ : Shape).Idx → α)
    (h : (⟨2, ![1, n]⟩ : Shape).BroadcastsInDim (⟨2, ![B, n]⟩ : Shape) ![0, 1]) (p : Fin B) (j : Fin n) :
    broadcastInDim (⟨2, ![B, n]⟩ : Shape) ![0, 1] h y (ix2 p j) = y (ix2 (0 : Fin 1) j) :=
  broadcastInDim_apply _ h y (ix2 p j) (ix2 (0 : Fin 1) j) (fun a => match a with
    | ⟨0, _⟩ => by
        show 0 = if (1 : Nat) = 1 then 0 else p.val
        rw [if_pos rfl]
    | ⟨1, _⟩ => by
        show j.val = if n = 1 then 0 else j.val
        split
        · have := j.isLt; omega
        · rfl)

/-- The kernel's spelling: a matrix-unit product into the zero accumulator plus a bias row broadcast down the rows, read
    at entry `(p, c)`, is lane `c` of `denseRow` of row `p` of the left operand. -/
theorem kernelDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul D prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c := by
  show matmul D prec l r (constant (F := Ideal) (⟨2, ![B, N]⟩ : Shape) .f32 0x00000000#32) (ix2 p c)
      + broadcastTo (⟨2, ![B, N]⟩ : Shape) bias hb (ix2 p c) = _
  rw [Cert.PlainMatmul.matmul_zero_apply D hr hs hl0 hl1 hr0 hr1 prec l r p c, Cert.RowBias.bcastRow_apply bias hb p c]
  rfl

/-- The host's spelling: a contraction plus a flat bias laid as a row and then down the rows, read at entry `(p, c)`,
    is lane `c` of `denseRow` of row `p` of the left operand. -/
theorem hostDense_apply {B K N : Nat} {φ₁ φ₂ : FTy}
    (D : DotDims (⟨2, ![B, K]⟩ : Shape) (⟨2, ![K, N]⟩ : Shape) (⟨2, ![B, N]⟩ : Shape))
    (hr : D.contr.rank = 1) (hs : D.contr.size ⟨0, by omega⟩ = K)
    (hl0 : ∀ (j : (⟨2, ![B, N]⟩ : Shape).Idx) (q : D.contr.Idx), (D.lhsIdx j q 0).val = (j 0).val)
    (hl1 : ∀ (j : (⟨2, ![B, N]⟩ : Shape).Idx) (q : D.contr.Idx), (D.lhsIdx j q 1).val = (q ⟨0, by omega⟩).val)
    (hr0 : ∀ (j : (⟨2, ![B, N]⟩ : Shape).Idx) (q : D.contr.Idx), (D.rhsIdx j q 0).val = (q ⟨0, by omega⟩).val)
    (hr1 : ∀ (j : (⟨2, ![B, N]⟩ : Shape).Idx) (q : D.contr.Idx), (D.rhsIdx j q 1).val = (j 1).val)
    (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) D prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c := by
  show Host.dotGeneral (F := Ideal) D prec l r (ix2 p c)
      + broadcastInDim (⟨2, ![B, N]⟩ : Shape) ![0, 1] h2 (broadcastInDim (⟨2, ![1, N]⟩ : Shape) ![1] h1 bias) (ix2 p c) = _
  rw [Cert.HostRowOps.hostDot_apply D hr hs hl0 hl1 hr0 hr1 prec l r p c, hostRowDown_apply _ h2 p c,
    hostFlatRow_apply bias h1 c]
  rfl

/-! ## The plain product `M x K` by `K x N`

  The library's record `DotDims.plain M K N` contracts the left operand's axis 1 with the right operand's axis 0 and has no
  batch axes. Its placement facts hold whatever the extents are, so the two spellings above need no hypotheses for it. A
  printed record with the same six lists is this record. -/

section Plain

variable (M K N : Nat)

theorem plain_rank : (DotDims.plain M K N).contr.rank = 1 := rfl

theorem plain_size : (DotDims.plain M K N).contr.size ⟨0, by rw [plain_rank]; exact Nat.one_pos⟩ = K := rfl

theorem plain_lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

theorem plain_rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

end Plain

/-- The kernel's spelling of a dense layer over the plain product. -/
theorem kernelDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨2, ![1, N]⟩ : Shape) .f32)
    (hb : Shape.Broadcasts (⟨2, ![1, N]⟩ : Shape) (⟨2, ![B, N]⟩ : Shape)) (p : Fin B) (c : Fin N) :
    addf (matmul (DotDims.plain B K N) prec l r (constant (F := Ideal) (⟨2, ![B, N]⟩ : Shape) .f32 0x00000000#32))
        (broadcastTo (⟨2, ![B, N]⟩ : Shape) bias hb) (ix2 p c)
      = denseRow (fun k => l (ix2 p k)) (fun k c => r (ix2 k c)) (fun c => bias (ix2 (0 : Fin 1) c)) c :=
  kernelDense_apply (DotDims.plain B K N) (plain_rank B K N) (plain_size B K N) (plain_lhs0 B K N) (plain_lhs1 B K N)
    (plain_rhs0 B K N) (plain_rhs1 B K N) prec l r bias hb p c

/-- The host's spelling of a dense layer over the plain product. -/
theorem hostDensePlain_apply {B K N : Nat} {φ₁ φ₂ : FTy} (prec : Option ContractPrecision)
    (l : FVec Ideal (⟨2, ![B, K]⟩ : Shape) φ₁) (r : FVec Ideal (⟨2, ![K, N]⟩ : Shape) φ₂)
    (bias : FVec Ideal (⟨1, ![N]⟩ : Shape) .f32)
    (h1 : (⟨1, ![N]⟩ : Shape).BroadcastsInDim (⟨2, ![1, N]⟩ : Shape) ![1])
    (h2 : (⟨2, ![1, N]⟩ : Shape).BroadcastsInDim (⟨2, ![B, N]⟩ : Shape) ![0, 1]) (p : Fin B) (c : Fin N) :
    addf (Host.dotGeneral (F := Ideal) (DotDims.plain B K N) prec l r)
        (broadcastInDim (⟨2, ![B, N]⟩ : Shape) ![0, 1] h2 (broadcastInDim (⟨2, ![1, N]⟩ : Shape) ![1] h1 bias)) (ix2 p c)
      = denseRow (fun k => l (ix2 p k)) (fun k c => r (ix2 k c)) (fun c => bias (ix1 c)) c :=
  hostDense_apply (DotDims.plain B K N) (plain_rank B K N) (plain_size B K N) (plain_lhs0 B K N) (plain_lhs1 B K N)
    (plain_rhs0 B K N) (plain_rhs1 B K N) prec l r bias h1 h2 p c

end Cert.DenseRow

end
-- ==== Proof.KernelPayload.lean ====
/-
  The kernel body's arithmetic, read at one entry of a block.

  A block holds 5000 consecutive nodes. For node p of the block the body forms the hidden row
      hid p k = max ( (sum_j x p j * ws1 j k) + (sum_j a p j * wn1 j k) + b k , 0 ),   k < 256,
  from the node's own features x, its neighbour mean a, the two layer-1 weight matrices and the bias row, and then stores
  two projections of it:  sum_k hid p k * ws2 k c  and  sum_k hid p k * wn2 k c,  c < 128.
  At the exact extended reals each matrix-unit product into the zero accumulator is the plain sum of products, the bias
  row broadcast down the block is the row itself, and the clamp is the maximum with zero.
-/
import proofs.«145372_j29901562315015_2_alg».proof.Proof.Gen.KernelIdeal.Skeleton
import proofs.«145372_j29901562315015_2_alg».proof.Proof.LibDenseRow
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Cert.KernelIdeal Cert.KernelIdeal.Gen

/-- The hidden row of a node: the clamped sum of its own projection, its neighbour mean's projection and the bias. -/
def hid {B : Nat} (x a : (⟨2, ![B, 256]⟩ : Shape).Idx → EReal) (ws1 wn1 : (⟨2, ![256, 256]⟩ : Shape).Idx → EReal)
    (b : (⟨2, ![1, 256]⟩ : Shape).Idx → EReal) (p : Fin B) (k : Fin 256) : EReal :=
  max (((∑ j : Fin 256, x (ix2 p j) * ws1 (ix2 j k)) + (∑ j : Fin 256, a (ix2 p j) * wn1 (ix2 j k)))
    + b (ix2 (0 : Fin 1) k)) 0

/-- A 5000 x 256 by 256 x 256 matrix-unit product into zero, at an entry. -/
theorem matmul_wide (l : FVec Ideal S5000x256 .f32) (r : FVec Ideal S256x256 .f32) (p : Fin 5000) (k : Fin 256) :
    matmul dot_S5000x256_S256x256_S5000x256_1_0_0_1_n_n (some .fp32) l r
        (constant (F := Ideal) S5000x256 .f32 0x00000000#32) (ix2 p k)
      = ∑ j : Fin 256, l (ix2 p j) * r (ix2 j k) :=
  Cert.PlainMatmul.matmul_zero_apply (DotDims.plain 5000 256 256) (Cert.DenseRow.plain_rank _ _ _)
    (Cert.DenseRow.plain_size _ _ _) (Cert.DenseRow.plain_lhs0 _ _ _) (Cert.DenseRow.plain_lhs1 _ _ _)
    (Cert.DenseRow.plain_rhs0 _ _ _) (Cert.DenseRow.plain_rhs1 _ _ _) (some .fp32) l r p k

/-- A 5000 x 256 by 256 x 128 matrix-unit product into zero, at an entry. -/
theorem matmul_narrow (l : FVec Ideal S5000x256 .f32) (r : FVec Ideal S256x128 .f32) (p : Fin 5000) (c : Fin 128) :
    matmul dot_S5000x256_S256x128_S5000x128_1_0_0_1_n_n (some .fp32) l r
        (constant (F := Ideal) S5000x128 .f32 0x00000000#32) (ix2 p c)
      = ∑ k : Fin 256, l (ix2 p k) * r (ix2 k c) :=
  Cert.PlainMatmul.matmul_zero_apply (DotDims.plain 5000 256 128) (Cert.DenseRow.plain_rank _ _ _)
    (Cert.DenseRow.plain_size _ _ _) (Cert.DenseRow.plain_lhs0 _ _ _) (Cert.DenseRow.plain_lhs1 _ _ _)
    (Cert.DenseRow.plain_rhs0 _ _ _) (Cert.DenseRow.plain_rhs1 _ _ _) (some .fp32) l r p c

/-- The body's hidden activation at entry (p, k) of the block is the hidden row of node p. -/
theorem pay1_apply (x0 x1 : Vec Ideal S5000x256 .f32) (x2 x3 : Vec Ideal S256x256 .f32) (x4 : Vec Ideal S1x256 .f32)
    (p : Fin 5000) (k : Fin 256) :
    k0_pay1 (F := Ideal) x0 x1 x2 x3 x4 (ix2 p k) = hid x0 x1 x2 x3 x4 p k := by
  unfold k0_pay1 hid
  rw [shapeCast_self, shapeCast_self]
  show max ((matmul dot_S5000x256_S256x256_S5000x256_1_0_0_1_n_n (some .fp32) x0 x2
        (constant (F := Ideal) S5000x256 .f32 0x00000000#32) (ix2 p k)
      + matmul dot_S5000x256_S256x256_S5000x256_1_0_0_1_n_n (some .fp32) x1 x3
        (constant (F := Ideal) S5000x256 .f32 0x00000000#32) (ix2 p k))
      + broadcastTo S5000x256 x4 broadcasts_S1x256_S5000x256 (ix2 p k)) (Ideal.ofBits .f32 0x00000000#32) = _
  rw [matmul_wide, matmul_wide, Cert.RowBias.bcastRow_apply x4 broadcasts_S1x256_S5000x256 p k, Ideal.ofBits_zero_f32]

/-- The first stored projection at entry (p, c). -/
theorem pay2_apply (x0 x1 : Vec Ideal S5000x256 .f32) (x2 x3 : Vec Ideal S256x256 .f32) (x4 : Vec Ideal S1x256 .f32)
    (x5 : Vec Ideal S256x128 .f32) (p : Fin 5000) (c : Fin 128) :
    k0_pay2 (F := Ideal) x0 x1 x2 x3 x4 x5 (ix2 p c) = ∑ k : Fin 256, hid x0 x1 x2 x3 x4 p k * x5 (ix2 k c) := by
  unfold k0_pay2
  rw [matmul_narrow]
  exact Finset.sum_congr rfl fun k _ => by rw [pay1_apply]

/-- The second stored projection at entry (p, c). -/
theorem pay3_apply (x0 x1 : Vec Ideal S5000x256 .f32) (x2 x3 : Vec Ideal S256x256 .f32) (x4 : Vec Ideal S1x256 .f32)
    (x6 : Vec Ideal S256x128 .f32) (p : Fin 5000) (c : Fin 128) :
    k0_pay3 (F := Ideal) x0 x1 x2 x3 x4 x6 (ix2 p c) = ∑ k : Fin 256, hid x0 x1 x2 x3 x4 p k * x6 (ix2 k c) := by
  unfold k0_pay3
  rw [matmul_narrow]
  exact Finset.sum_congr rfl fun k _ => by rw [pay1_apply]

end Cert.KernelIdeal.Payload

end
-- ==== Proof.KernelBlocks.lean ====
/-
  From blocks to whole arrays: what the two output arrays of the kernel hold after its ten grid points.

  Grid point t works on nodes 5000 t ... 5000 t + 4999: it reads rows of the feature array and of the neighbour-mean array
  at that offset, the four weight matrices and the bias row whole, and writes rows of the two output arrays at the same
  offset.  The hidden row of a node depends on that node's rows only, so the block written at point t is the
  restriction to those rows of ONE function of the whole arrays,
      proj A0 A1 A2 A3 A4 W (n, c) = sum_k hid A0 A1 A2 A3 A4 n k * W (k, c),
  with W the layer-2 self weights for the first output and the layer-2 neighbour weights for the second.  The ten blocks
  tile the 50000 rows (node n lies in the block of point n / 5000), so each output array ends holding that function.
-/
import proofs.«145372_j29901562315015_2_alg».proof.Proof.Gen.KernelIdeal.Frame
import proofs.«145372_j29901562315015_2_alg».proof.Proof.KernelPayload

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.KernelIdeal.Payload
open Idealize.ShloMosaic.Pipeline (Dat)

/-- A projection of every node's hidden row by a 256 x 128 weight matrix, as one array. -/
def proj (A0 A1 : (⟨2, ![50000, 256]⟩ : Shape).Idx → EReal) (A2 A3 : (⟨2, ![256, 256]⟩ : Shape).Idx → EReal)
    (A4 : (⟨2, ![1, 256]⟩ : Shape).Idx → EReal) (W : (⟨2, ![256, 128]⟩ : Shape).Idx → EReal) :
    (⟨2, ![50000, 128]⟩ : Shape).Idx → EReal :=
  fun i => ∑ k : Fin 256, hid A0 A1 A2 A3 A4 (i 0) k * W (ix2 k (i 1))

theorem proj_apply (A0 A1 : (⟨2, ![50000, 256]⟩ : Shape).Idx → EReal) (A2 A3 : (⟨2, ![256, 256]⟩ : Shape).Idx → EReal)
    (A4 : (⟨2, ![1, 256]⟩ : Shape).Idx → EReal) (W : (⟨2, ![256, 128]⟩ : Shape).Idx → EReal) (n : Fin 50000) (c : Fin 128) :
    proj A0 A1 A2 A3 A4 W (ix2 n c) = ∑ k : Fin 256, hid A0 A1 A2 A3 A4 n k * W (ix2 k c) := rfl

/-- The hidden row of node T * 5000 + p of the whole arrays is the hidden row of node p of the block of point T. -/
theorem hid_block (A0 A1 : (⟨2, ![50000, 256]⟩ : Shape).Idx → EReal) (A2 A3 : (⟨2, ![256, 256]⟩ : Shape).Idx → EReal)
    (A4 : (⟨2, ![1, 256]⟩ : Shape).Idx → EReal)
    (x0 x1 : (⟨2, ![5000, 256]⟩ : Shape).Idx → EReal) (x2 x3 : (⟨2, ![256, 256]⟩ : Shape).Idx → EReal)
    (x4 : (⟨2, ![1, 256]⟩ : Shape).Idx → EReal) (p : Fin 5000) (n : Fin 50000)
    (h0 : ∀ j : Fin 256, x0 (ix2 p j) = A0 (ix2 n j)) (h1 : ∀ j : Fin 256, x1 (ix2 p j) = A1 (ix2 n j))
    (h2 : ∀ j k : Fin 256, x2 (ix2 j k) = A2 (ix2 j k)) (h3 : ∀ j k : Fin 256, x3 (ix2 j k) = A3 (ix2 j k))
    (h4 : ∀ k : Fin 256, x4 (ix2 (0 : Fin 1) k) = A4 (ix2 (0 : Fin 1) k)) (k : Fin 256) :
    hid x0 x1 x2 x3 x4 p k = hid A0 A1 A2 A3 A4 n k := by
  unfold hid
  simp only [h0, h1, h2, h3, h4]

/-- A stored projection at entry (p, c) of the block of a point is the whole-array projection at the node the entry is. -/
theorem proj_block (A0 A1 : (⟨2, ![50000, 256]⟩ : Shape).Idx → EReal) (A2 A3 : (⟨2, ![256, 256]⟩ : Shape).Idx → EReal)
    (A4 : (⟨2, ![1, 256]⟩ : Shape).Idx → EReal) (W : (⟨2, ![256, 128]⟩ : Shape).Idx → EReal)
    (x0 x1 : (⟨2, ![5000, 256]⟩ : Shape).Idx → EReal) (x2 x3 : (⟨2, ![256, 256]⟩ : Shape).Idx → EReal)
    (x4 : (⟨2, ![1, 256]⟩ : Shape).Idx → EReal) (xw : (⟨2, ![256, 128]⟩ : Shape).Idx → EReal) (p : Fin 5000) (n : Fin 50000)
    (h0 : ∀ j : Fin 256, x0 (ix2 p j) = A0 (ix2 n j)) (h1 : ∀ j : Fin 256, x1 (ix2 p j) = A1 (ix2 n j))
    (h2 : ∀ j k : Fin 256, x2 (ix2 j k) = A2 (ix2 j k)) (h3 : ∀ j k : Fin 256, x3 (ix2 j k) = A3 (ix2 j k))
    (h4 : ∀ k : Fin 256, x4 (ix2 (0 : Fin 1) k) = A4 (ix2 (0 : Fin 1) k))
    (hw : ∀ (k : Fin 256) (c : Fin 128), xw (ix2 k c) = W (ix2 k c)) (c : Fin 128) :
    (∑ k : Fin 256, hid x0 x1 x2 x3 x4 p k * xw (ix2 k c)) = proj A0 A1 A2 A3 A4 W (ix2 n c) := by
  rw [proj_apply]
  exact Finset.sum_congr rfl fun k _ => by rw [hid_block A0 A1 A2 A3 A4 x0 x1 x2 x3 x4 p n h0 h1 h2 h3 h4 k, hw]

variable (m : (ℓ : Loc nD τ sig) → Buf (Elt Ideal) ℓ)

theorem hz : (![0, 0] : Fin 2 → Nat) = fun _ => 0 := funext fun a => by fin_cases a <;> rfl

/-- The printed index maps, decided over the grid: the row-blocked windows are at block (t, 0), the whole ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- The same facts, window by window. -/
theorem idx0 (t : Fin cfg0.N) : win0_0.index t (0 : Fin 2) = t.val ∧ win0_0.index t (1 : Fin 2) = 0 :=
  ⟨(idx_facts t).1, (idx_facts t).2.1⟩
theorem idx1 (t : Fin cfg0.N) : win0_1.index t (0 : Fin 2) = t.val ∧ win0_1.index t (1 : Fin 2) = 0 :=
  ⟨(idx_facts t).2.2.1, (idx_facts t).2.2.2.1⟩
theorem idx2 (t : Fin cfg0.N) : win0_2.index t (0 : Fin 2) = 0 ∧ win0_2.index t (1 : Fin 2) = 0 :=
  ⟨(idx_facts t).2.2.2.2.1, (idx_facts t).2.2.2.2.2.1⟩
theorem idx3 (t : Fin cfg0.N) : win0_3.index t (0 : Fin 2) = 0 ∧ win0_3.index t (1 : Fin 2) = 0 :=
  ⟨(idx_facts t).2.2.2.2.2.2.1, (idx_facts t).2.2.2.2.2.2.2.1⟩
theorem idx4 (t : Fin cfg0.N) : win0_4.index t (0 : Fin 2) = 0 ∧ win0_4.index t (1 : Fin 2) = 0 :=
  ⟨(idx_facts t).2.2.2.2.2.2.2.2.1, (idx_facts t).2.2.2.2.2.2.2.2.2.1⟩
theorem idx5 (t : Fin cfg0.N) : win0_5.index t (0 : Fin 2) = 0 ∧ win0_5.index t (1 : Fin 2) = 0 :=
  ⟨(idx_facts t).2.2.2.2.2.2.2.2.2.2.1, (idx_facts t).2.2.2.2.2.2.2.2.2.2.2.1⟩
theorem idx6 (t : Fin cfg0.N) : win0_6.index t (0 : Fin 2) = 0 ∧ win0_6.index t (1 : Fin 2) = 0 :=
  ⟨(idx_facts t).2.2.2.2.2.2.2.2.2.2.2.2.1, (idx_facts t).2.2.2.2.2.2.2.2.2.2.2.2.2.1⟩
theorem idx7 (t : Fin cfg0.N) : win0_7.index t (0 : Fin 2) = t.val ∧ win0_7.index t (1 : Fin 2) = 0 :=
  ⟨(idx_facts t).2.2.2.2.2.2.2.2.2.2.2.2.2.2.1, (idx_facts t).2.2.2.2.2.2.2.2.2.2.2.2.2.2.2.1⟩
theorem idx8 (t : Fin cfg0.N) : win0_8.index t (0 : Fin 2) = t.val ∧ win0_8.index t (1 : Fin 2) = 0 :=
  ⟨(idx_facts t).2.2.2.2.2.2.2.2.2.2.2.2.2.2.2.2.1, (idx_facts t).2.2.2.2.2.2.2.2.2.2.2.2.2.2.2.2.2⟩

theorem t_lt (t : Fin cfg0.N) : t.val < 10 := by
  have h : cfg0.N = 10 := N_0
  have := t.isLt
  omega

/-- The node that entry p of the block of point t is. -/
def node (t : Fin cfg0.N) (p : Fin 5000) : Fin 50000 := ⟨t.val * 5000 + p.val, by have := t_lt t; have := p.isLt; omega⟩

/-- Window 0's block at point t, read off ANY contents A of its array, is A at the node's row. -/
theorem blk_read0 (c : Dev nD) (A : Buf (Elt Ideal) ((c : Thread nD τ).loc main_arg0)) (t : Fin cfg0.N) (p : Fin 5000) (j : Fin 256) :
    ((cfg0.win 0).blk t).view.read (Elt Ideal) A (ix2 p j) = A (ix2 (node t p) j) := by
  show A (((cfg0.win 0).blk t).view.emb (ix2 p j)) = _
  refine congrArg A (funext fun a => Fin.ext ?_)
  match a with
  | ⟨0, _⟩ =>
    show win0_0.index t (0 : Fin 2) * 5000 + 1 * p.val = t.val * 5000 + p.val
    rw [(idx0 t).1]; omega
  | ⟨1, _⟩ =>
    show win0_0.index t (1 : Fin 2) * 256 + 1 * j.val = j.val
    rw [(idx0 t).2]; omega

/-- Window 0's block at point t reads the array the region finds at the node's row. -/
theorem iblk0_apply (c : Dev nD) (t : Fin cfg0.N) (p : Fin 5000) (j : Fin 256) :
    iblk m c 0 t (ix2 p j) = V m c main_arg0 (ix2 (node t p) j) :=
  blk_read0 c (V m c main_arg0) t p j

/-- Window 1's block at point t, read off ANY contents A of its array, is A at the node's row. -/
theorem blk_read1 (c : Dev nD) (A : Buf (Elt Ideal) ((c : Thread nD τ).loc main_v18)) (t : Fin cfg0.N) (p : Fin 5000) (j : Fin 256) :
    ((cfg0.win 1).blk t).view.read (Elt Ideal) A (ix2 p j) = A (ix2 (node t p) j) := by
  show A (((cfg0.win 1).blk t).view.emb (ix2 p j)) = _
  refine congrArg A (funext fun a => Fin.ext ?_)
  match a with
  | ⟨0, _⟩ =>
    show win0_1.index t (0 : Fin 2) * 5000 + 1 * p.val = t.val * 5000 + p.val
    rw [(idx1 t).1]; omega
  | ⟨1, _⟩ =>
    show win0_1.index t (1 : Fin 2) * 256 + 1 * j.val = j.val
    rw [(idx1 t).2]; omega

/-- Window 1's block at point t reads the array the region finds at the node's row. -/
theorem iblk1_apply (c : Dev nD) (t : Fin cfg0.N) (p : Fin 5000) (j : Fin 256) :
    iblk m c 1 t (ix2 p j) = V m c main_v18 (ix2 (node t p) j) :=
  blk_read1 c (V m c main_v18) t p j

/-- Window 2's block at point t, read off ANY contents A of its array, is A at the same entry. -/
theorem blk_read2 (c : Dev nD) (A : Buf (Elt Ideal) ((c : Thread nD τ).loc main_arg1)) (t : Fin cfg0.N) (p : Fin 256) (j : Fin 256) :
    ((cfg0.win 2).blk t).view.read (Elt Ideal) A (ix2 p j) = A (ix2 p j) := by
  show A (((cfg0.win 2).blk t).view.emb (ix2 p j)) = _
  refine congrArg A (funext fun a => Fin.ext ?_)
  match a with
  | ⟨0, _⟩ =>
    show win0_2.index t (0 : Fin 2) * 256 + 1 * p.val = p.val
    rw [(idx2 t).1]; omega
  | ⟨1, _⟩ =>
    show win0_2.index t (1 : Fin 2) * 256 + 1 * j.val = j.val
    rw [(idx2 t).2]; omega

/-- Window 2's block at point t reads the array the region finds at the same entry. -/
theorem iblk2_apply (c : Dev nD) (t : Fin cfg0.N) (p : Fin 256) (j : Fin 256) :
    iblk m c 2 t (ix2 p j) = V m c main_arg1 (ix2 p j) :=
  blk_read2 c (V m c main_arg1) t p j

/-- Window 3's block at point t, read off ANY contents A of its array, is A at the same entry. -/
theorem blk_read3 (c : Dev nD) (A : Buf (Elt Ideal) ((c : Thread nD τ).loc main_arg2)) (t : Fin cfg0.N) (p : Fin 256) (j : Fin 256) :
    ((cfg0.win 3).blk t).view.read (Elt Ideal) A (ix2 p j) = A (ix2 p j) := by
  show A (((cfg0.win 3).blk t).view.emb (ix2 p j)) = _
  refine congrArg A (funext fun a => Fin.ext ?_)
  match a with
  | ⟨0, _⟩ =>
    show win0_3.index t (0 : Fin 2) * 256 + 1 * p.val = p.val
    rw [(idx3 t).1]; omega
  | ⟨1, _⟩ =>
    show win0_3.index t (1 : Fin 2) * 256 + 1 * j.val = j.val
    rw [(idx3 t).2]; omega

/-- Window 3's block at point t reads the array the region finds at the same entry. -/
theorem iblk3_apply (c : Dev nD) (t : Fin cfg0.N) (p : Fin 256) (j : Fin 256) :
    iblk m c 3 t (ix2 p j) = V m c main_arg2 (ix2 p j) :=
  blk_read3 c (V m c main_arg2) t p j

/-- Window 4's block at point t, read off ANY contents A of its array, is A at the same entry. -/
theorem blk_read4 (c : Dev nD) (A : Buf (Elt Ideal) ((c : Thread nD τ).loc main_v19)) (t : Fin cfg0.N) (p : Fin 1) (j : Fin 256) :
    ((cfg0.win 4).blk t).view.read (Elt Ideal) A (ix2 p j) = A (ix2 p j) := by
  show A (((cfg0.win 4).blk t).view.emb (ix2 p j)) = _
  refine congrArg A (funext fun a => Fin.ext ?_)
  match a with
  | ⟨0, _⟩ =>
    show win0_4.index t (0 : Fin 2) * 1 + 1 * p.val = p.val
    rw [(idx4 t).1]; omega
  | ⟨1, _⟩ =>
    show win0_4.index t (1 : Fin 2) * 256 + 1 * j.val = j.val
    rw [(idx4 t).2]; omega

/-- Window 4's block at point t reads the array the region finds at the same entry. -/
theorem iblk4_apply (c : Dev nD) (t : Fin cfg0.N) (p : Fin 1) (j : Fin 256) :
    iblk m c 4 t (ix2 p j) = V m c main_v19 (ix2 p j) :=
  blk_read4 c (V m c main_v19) t p j

/-- Window 5's block at point t, read off ANY contents A of its array, is A at the same entry. -/
theorem blk_read5 (c : Dev nD) (A : Buf (Elt Ideal) ((c : Thread nD τ).loc main_arg4)) (t : Fin cfg0.N) (p : Fin 256) (j : Fin 128) :
    ((cfg0.win 5).blk t).view.read (Elt Ideal) A (ix2 p j) = A (ix2 p j) := by
  show A (((cfg0.win 5).blk t).view.emb (ix2 p j)) = _
  refine congrArg A (funext fun a => Fin.ext ?_)
  match a with
  | ⟨0, _⟩ =>
    show win0_5.index t (0 : Fin 2) * 256 + 1 * p.val = p.val
    rw [(idx5 t).1]; omega
  | ⟨1, _⟩ =>
    show win0_5.index t (1 : Fin 2) * 128 + 1 * j.val = j.val
    rw [(idx5 t).2]; omega

/-- Window 5's block at point t reads the array the region finds at the same entry. -/
theorem iblk5_apply (c : Dev nD) (t : Fin cfg0.N) (p : Fin 256) (j : Fin 128) :
    iblk m c 5 t (ix2 p j) = V m c main_arg4 (ix2 p j) :=
  blk_read5 c (V m c main_arg4) t p j

/-- Window 6's block at point t, read off ANY contents A of its array, is A at the same entry. -/
theorem blk_read6 (c : Dev nD) (A : Buf (Elt Ideal) ((c : Thread nD τ).loc main_arg5)) (t : Fin cfg0.N) (p : Fin 256) (j : Fin 128) :
    ((cfg0.win 6).blk t).view.read (Elt Ideal) A (ix2 p j) = A (ix2 p j) := by
  show A (((cfg0.win 6).blk t).view.emb (ix2 p j)) = _
  refine congrArg A (funext fun a => Fin.ext ?_)
  match a with
  | ⟨0, _⟩ =>
    show win0_6.index t (0 : Fin 2) * 256 + 1 * p.val = p.val
    rw [(idx6 t).1]; omega
  | ⟨1, _⟩ =>
    show win0_6.index t (1 : Fin 2) * 128 + 1 * j.val = j.val
    rw [(idx6 t).2]; omega

/-- Window 6's block at point t reads the array the region finds at the same entry. -/
theorem iblk6_apply (c : Dev nD) (t : Fin cfg0.N) (p : Fin 256) (j : Fin 128) :
    iblk m c 6 t (ix2 p j) = V m c main_arg5 (ix2 p j) :=
  blk_read6 c (V m c main_arg5) t p j

/-- An entry (p, q) of output window 7's block at point t is the array's entry (node t p, q). -/
theorem emb7 (t : Fin cfg0.N) (p : Fin 5000) (q : Fin 128) :
    ((cfg0.win 7).blk t).view.emb (ix2 p q) = ix2 (node t p) q := by
  refine funext fun a => Fin.ext ?_
  match a with
  | ⟨0, _⟩ =>
    show win0_7.index t (0 : Fin 2) * 5000 + 1 * p.val = t.val * 5000 + p.val
    rw [(idx7 t).1]; omega
  | ⟨1, _⟩ =>
    show win0_7.index t (1 : Fin 2) * 128 + 1 * q.val = q.val
    rw [(idx7 t).2]; omega

/-- An entry (p, q) of output window 8's block at point t is the array's entry (node t p, q). -/
theorem emb8 (t : Fin cfg0.N) (p : Fin 5000) (q : Fin 128) :
    ((cfg0.win 8).blk t).view.emb (ix2 p q) = ix2 (node t p) q := by
  refine funext fun a => Fin.ext ?_
  match a with
  | ⟨0, _⟩ =>
    show win0_8.index t (0 : Fin 2) * 5000 + 1 * p.val = t.val * 5000 + p.val
    rw [(idx8 t).1]; omega
  | ⟨1, _⟩ =>
    show win0_8.index t (1 : Fin 2) * 128 + 1 * q.val = q.val
    rw [(idx8 t).2]; omega

end Cert.KernelIdeal.Blocks

end
-- ==== Proof.KernelFinal.lean ====
/-
  The two output arrays of the kernel after its ten grid points.

  The block written at point t is the restriction to rows 5000 t ... 5000 t + 4999 of one function of the whole arrays
  (the projection of every node's hidden row by a layer-2 weight matrix), and node n lies in the block of point n / 5000,
  so the ten blocks tile the array and it ends holding that function.
-/
import proofs.«145372_j29901562315015_2_alg».proof.Proof.KernelBlocks

set_option maxRecDepth 16384

noncomputable section

open scoped BigOperators

namespace Cert.KernelIdeal.Blocks

open Idealize.ShloMosaic Idealize.ShloMosaic.TcCoe Idealize.ShloMosaic.ValueIdx Idealize.SL.Sem
open Cert.KernelIdeal Cert.KernelIdeal.Gen Cert.KernelIdeal.Payload
open Idealize.ShloMosaic.Pipeline (Dat)

variable (m : (ℓ : Loc nD τ sig) → Buf (Elt Ideal) ℓ)
/-- The first output as a function of the arrays the region finds: every node's hidden row projected by the layer-2 self
    weights. -/
def selfProj (c : Dev nD) : (⟨2, ![50000, 128]⟩ : Shape).Idx → EReal :=
  proj (V m c main_arg0) (V m c main_v18) (V m c main_arg1) (V m c main_arg2) (V m c main_v19) (V m c main_arg4)

/-- The second output: every node's hidden row projected by the layer-2 neighbour weights. -/
def nbrProj (c : Dev nD) : (⟨2, ![50000, 128]⟩ : Shape).Idx → EReal :=
  proj (V m c main_arg0) (V m c main_v18) (V m c main_arg1) (V m c main_arg2) (V m c main_v19) (V m c main_arg5)

/-- WHAT POINT t WRITES BACK to output window 7 is block t of selfProj. -/
theorem flushed7_eq (c : Dev nD) (t : Fin cfg0.N) :
    (dats m 0 c).flushed 7 t = ((cfg0.win 7).blk t).view.read (Elt Ideal) (selfProj m c) := by
  show (cfg0.win 7).cut (grid0.coords t) ((dats m 0 c).after 7 t) = _
  rw [after0_7]
  unfold out0_7
  rw [View.canon_unit_zero hz]
  simp only [View.ld_unit_zero (S := S5000x256) hz, View.ld_unit_zero (S := S256x256) hz,
    View.ld_unit_zero (S := S1x256) hz, View.ld_unit_zero (S := S256x128) hz]
  funext y
  obtain ⟨p, q, rfl⟩ : ∃ (p : Fin 5000) (q : Fin 128), y = ix2 p q := ⟨y 0, y 1, eq_ix2 y⟩
  show k0_pay2 (F := Ideal) (iblk m c 0 t) (iblk m c 1 t) (iblk m c 2 t) (iblk m c 3 t) (iblk m c 4 t) (iblk m c 5 t) (ix2 p q)
    = selfProj m c (((cfg0.win 7).blk t).view.emb (ix2 p q))
  rw [emb7]
  refine (pay2_apply (iblk m c 0 t) (iblk m c 1 t) (iblk m c 2 t) (iblk m c 3 t) (iblk m c 4 t) (iblk m c 5 t) p q).trans ?_
  exact proj_block (V m c main_arg0) (V m c main_v18) (V m c main_arg1) (V m c main_arg2) (V m c main_v19) (V m c main_arg4)
    (iblk m c 0 t) (iblk m c 1 t) (iblk m c 2 t) (iblk m c 3 t) (iblk m c 4 t) (iblk m c 5 t) p (node t p)
    (fun j => iblk0_apply m c t p j) (fun j => iblk1_apply m c t p j)
    (fun j k => iblk2_apply m c t j k) (fun j k => iblk3_apply m c t j k) (fun k => iblk4_apply m c t 0 k)
    (fun k c' => iblk5_apply m c t k c') q

/-- WHAT POINT t WRITES BACK to output window 8 is block t of nbrProj. -/
theorem flushed8_eq (c : Dev nD) (t : Fin cfg0.N) :
    (dats m 0 c).flushed 8 t = ((cfg0.win 8).blk t).view.read (Elt Ideal) (nbrProj m c) := by
  show (cfg0.win 8).cut (grid0.coords t) ((dats m 0 c).after 8 t) = _
  rw [after0_8]
  unfold out0_8
  rw [View.canon_unit_zero hz]
  simp only [View.ld_unit_zero (S := S5000x256) hz, View.ld_unit_zero (S := S256x256) hz,
    View.ld_unit_zero (S := S1x256) hz, View.ld_unit_zero (S := S256x128) hz]
  funext y
  obtain ⟨p, q, rfl⟩ : ∃ (p : Fin 5000) (q : Fin 128), y = ix2 p q := ⟨y 0, y 1, eq_ix2 y⟩
  show k0_pay3 (F := Ideal) (iblk m c 0 t) (iblk m c 1 t) (iblk m c 2 t) (iblk m c 3 t) (iblk m c 4 t) (iblk m c 6 t) (ix2 p q)
    = nbrProj m c (((cfg0.win 8).blk t).view.emb (ix2 p q))
  rw [emb8]
  refine (pay3_apply (iblk m c 0 t) (iblk m c 1 t) (iblk m c 2 t) (iblk m c 3 t) (iblk m c 4 t) (iblk m c 6 t) p q).trans ?_
  exact proj_block (V m c main_arg0) (V m c main_v18) (V m c main_arg1) (V m c main_arg2) (V m c main_v19) (V m c main_arg5)
    (iblk m c 0 t) (iblk m c 1 t) (iblk m c 2 t) (iblk m c 3 t) (iblk m c 4 t) (iblk m c 6 t) p (node t p)
    (fun j => iblk0_apply m c t p j) (fun j => iblk1_apply m c t p j)
    (fun j k => iblk2_apply m c t j k) (fun j k => iblk3_apply m c t j k) (fun k => iblk4_apply m c t 0 k)
    (fun k c' => iblk6_apply m c t k c') q

/-- An index of output window 7's array is in point t's block iff each coordinate is in the block's range on its axis. -/
theorem mem_blk7 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v20_0).slice (win0_7.rect t)).set ↔ _
  rw [View.set_slice_whole, Rect.mem_set_unit]
  exact Iff.rfl

/-- An index of output window 8's array is in point t's block iff each coordinate is in the block's range on its axis. -/
theorem mem_blk8 (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v20_1).slice (win0_8.rect t)).set ↔ _
  rw [View.set_slice_whole, Rect.mem_set_unit]
  exact Iff.rfl

/-- The point whose block holds row r. -/
def pointOf (r : Nat) (hr : r < 50000) : Fin cfg0.N := ⟨r / 5000, by have h : cfg0.N = 10 := N_0; omega⟩

/-- THE COVER of output window 7's array: every index is in the block of the point its row belongs to. -/
theorem cover7 (i : S50000x128.Idx) :
    ∃ t : Fin cfg0.N, (cfg0.win 7).flush t = true ∧ i ∈ ((cfg0.win 7).blk t).view.set := by
  have hi0 : (i 0).val < 50000 := idx2_lt0 i
  have hi1 : (i 1).val < 128 := idx2_lt1 i
  refine ⟨pointOf (i 0).val hi0, flush0_7 _, ?_⟩
  have hv : (pointOf (i 0).val hi0).val = (i 0).val / 5000 := rfl
  rw [mem_blk7]
  intro a
  match a with
  | ⟨0, _⟩ =>
    show win0_7.index (pointOf (i 0).val hi0) (0 : Fin 2) * 5000 ≤ (i 0).val
      ∧ (i 0).val < win0_7.index (pointOf (i 0).val hi0) (0 : Fin 2) * 5000 + 5000
    rw [(idx7 _).1, hv]; omega
  | ⟨1, _⟩ =>
    show win0_7.index (pointOf (i 0).val hi0) (1 : Fin 2) * 128 ≤ (i 1).val
      ∧ (i 1).val < win0_7.index (pointOf (i 0).val hi0) (1 : Fin 2) * 128 + 128
    rw [(idx7 _).2]; omega

/-- THE COVER of output window 8's array: every index is in the block of the point its row belongs to. -/
theorem cover8 (i : S50000x128.Idx) :
    ∃ t : Fin cfg0.N, (cfg0.win 8).flush t = true ∧ i ∈ ((cfg0.win 8).blk t).view.set := by
  have hi0 : (i 0).val < 50000 := idx2_lt0 i
  have hi1 : (i 1).val < 128 := idx2_lt1 i
  refine ⟨pointOf (i 0).val hi0, flush0_8 _, ?_⟩
  have hv : (pointOf (i 0).val hi0).val = (i 0).val / 5000 := rfl
  rw [mem_blk8]
  intro a
  match a with
  | ⟨0, _⟩ =>
    show win0_8.index (pointOf (i 0).val hi0) (0 : Fin 2) * 5000 ≤ (i 0).val
      ∧ (i 0).val < win0_8.index (pointOf (i 0).val hi0) (0 : Fin 2) * 5000 + 5000
    rw [(idx8 _).1, hv]; omega
  | ⟨1, _⟩ =>
    show win0_8.index (pointOf (i 0).val hi0) (1 : Fin 2) * 128 ≤ (i 1).val
      ∧ (i 1).val < win0_8.index (pointOf (i 0).val hi0) (1 : Fin 2) * 128 + 128
    rw [(idx8 _).2]; omega

/-- THE FIRST OUTPUT ARRAY after the ten points. -/
theorem final7 (c : Dev nD) : (dats m 0 c).arrAt 7 cfg0.N = selfProj m c :=
  (dats m 0 c).arrAt_eq_of_cover 7 (selfProj m c) (fun t _ => flushed7_eq m c t) cover7

/-- THE SECOND OUTPUT ARRAY after the ten points. -/
theorem final8 (c : Dev nD) : (dats m 0 c).arrAt 8 cfg0.N = nbrProj m c :=
  (dats m 0 c).arrAt_eq_of_cover 8 (nbrProj m c) (fun t _ => flushed8_eq m c t) cover8

end Cert.KernelIdeal.Blocks

end
-- ==== Proof.KernelHostTerms.lean ====
/-
  The three arrays the host lines before the kernel's region compute, as terms of the program's arguments.

  The degree column and the neighbour-mean array are, operation for operation, what the reference computes for its own
  first layer; the bias row is the flat layer-1 bias cast to one row.
-/
import proofs.«145372_j29901562315015_2_alg».proof.Proof.Gen.KernelIdeal.Frame
import proofs.«145372_j29901562315015_2_alg».proof.Proof.Gen.ReferenceIdeal.Read
import Idealize.ShloMosaic.Lib.StableHlo.Run

set_option maxRecDepth 16384

noncomputable section

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

set_option maxHeartbeats 4000000 in
/-- The neighbour-mean array as the region finds it is the reference's first-layer neighbour mean of the same arguments. -/
theorem V_nbr (c : Dev nD) :
    V m c main_v18 = Cert.ReferenceIdeal.Read.val_main_v18 (F := Ideal) (m ((c : Thread nD τ).loc main_arg0))
      (m ((c : Thread nD τ).loc main_arg7)) (m ((c : Thread nD τ).loc main_arg8)) := by
  show StableHlo.after hostOps0 (fun b => m (c, b)) (Proc.devRef .tc main_v18) = _
  after_results_simp
  rfl

set_option maxHeartbeats 4000000 in
/-- The degree column as the region finds it is the reference's clamped degree column. -/
theorem V_deg (c : Dev nD) :
    V m c main_v6 = Cert.ReferenceIdeal.Read.val_main_v16 (F := Ideal) (m ((c : Thread nD τ).loc main_arg8)) := by
  show StableHlo.after hostOps0 (fun b => m (c, b)) (Proc.devRef .tc main_v6) = _
  after_results_simp
  rfl

set_option maxHeartbeats 4000000 in
/-- The bias row as the region finds it is the flat layer-1 bias cast to one row. -/
theorem V_bias (c : Dev nD) :
    V m c main_v19 = shapeCast S1x256 (m ((c : Thread nD τ).loc main_arg3)) shapeCasts_S256_S1x256 := by
  show StableHlo.after hostOps0 (fun b => m (c, b)) (Proc.devRef .tc main_v19) = _
  after_results_simp
  rfl

end Cert.KernelIdeal.HostValue

end
-- ==== Proof.LibAggregateLaw.lean ====
/-
Finite sums on the extended reals, and exact division, restricted to real entries.

On the extended reals addition and multiplication are not distributive in general
(the infinities break it), so a neighbour-mean aggregation cannot be moved across a
linear projection without a hypothesis.  When every entry is a real number all the
sums, products, maxima and exact quotients by a real divisor at least one stay real,
and the identity reduces to the distributive and commutative laws of the reals.
This file proves those closure facts and the resulting exchange law.
-/
import Mathlib
import Idealize.ShloMosaic.PureOps.Ideal

noncomputable section

namespace Cert.AggregateLaw

open Idealize.ShloMosaic
open scoped BigOperators

/-- An extended real that is a real number. -/
def IsReal (x : EReal) : Prop := ∃ r : ℝ, x = (r : EReal)

/-- The coercion from the reals to the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih =>
    rw [Finset.sum_insert ha, Finset.sum_insert ha, EReal.coe_add, ih]

theorem isReal_coe (r : ℝ) : IsReal (r : EReal) := ⟨r, rfl⟩

theorem isReal_zero : IsReal 0 := ⟨0, rfl⟩

theorem isReal_one : IsReal 1 := ⟨1, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_max {x y : EReal} (hx : IsReal x) (hy : IsReal y) : IsReal (max x y) := by
  rcases max_choice x y with h | h
  · rw [h]; exact hx
  · rw [h]; exact hy

theorem isReal_sum {ι : Type} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact isReal_add (h a (Finset.mem_insert_self a s))
      (ih fun i hi => h i (Finset.mem_insert_of_mem hi))

/-- A count of edges, clamped below by one, is a real number at least one. -/
theorem isReal_count_max_one {ι : Type} (s : Finset ι) :
    ∃ r : ℝ, 1 ≤ r ∧ max ((0 : EReal) + ∑ _e ∈ s, (1 : EReal)) 1 = (r : EReal) := by
  refine ⟨max (∑ _e ∈ s, (1 : ℝ)) 1, le_max_right _ _, ?_⟩
  have hs : ((0 : EReal) + ∑ _e ∈ s, (1 : EReal)) = ((∑ _e ∈ s, (1 : ℝ) : ℝ) : EReal) := by
    rw [zero_add, coe_sum]
    rfl
  rw [hs]
  rcases le_total (∑ _e ∈ s, (1 : ℝ)) 1 with hle | hle
  · rw [max_eq_right hle, max_eq_right (by exact_mod_cast hle)]
    rfl
  · rw [max_eq_left hle, max_eq_left (by exact_mod_cast hle)]

/-- The exact quotient of a real by a real that is at least one is a real. -/
theorem isReal_div {x : EReal} {r : ℝ} (hx : IsReal x) (hr : 1 ≤ r) :
    IsReal (Ideal.div x (r : EReal)) := by
  have hr0 : r ≠ 0 := by linarith
  rw [Ideal.div_coe hr0]
  exact isReal_mul hx (isReal_coe _)

/-- An extended real that is neither of the two infinities is a real. -/
theorem isReal_of_ne {x : EReal} (h1 : x ≠ ⊤) (h2 : x ≠ ⊥) : IsReal x :=
  ⟨x.toReal, (EReal.coe_toReal h1 h2).symm⟩

/-- The exchange law.  For real entries `h e k`, real weights `w k` and a real divisor
`r ≥ 1`: summing over the edges `e` of a set `s` the projected rows `∑ k, h e k * w k`
and then dividing by `r` gives the same as dividing each aggregated column
`∑ e ∈ s, h e k` by `r` and then projecting.  Both sides start their edge sum from `0`. -/
theorem agg_project {ε κ : Type} [Fintype κ] (s : Finset ε) (h : ε → κ → EReal)
    (w : κ → EReal) (r : ℝ)
    (hh : ∀ e k, IsReal (h e k)) (hw : ∀ k, IsReal (w k)) (hr : 1 ≤ r) :
    Ideal.div ((0 : EReal) + ∑ e ∈ s, ∑ k, h e k * w k) (r : EReal)
      = ∑ k, Ideal.div ((0 : EReal) + ∑ e ∈ s, h e k) (r : EReal) * w k := by
  have hr0 : r ≠ 0 := by linarith
  choose hR hhR using hh
  choose wR hwR using hw
  -- the left side is the coercion of a real number
  have hL : Ideal.div ((0 : EReal) + ∑ e ∈ s, ∑ k, h e k * w k) (r : EReal)
      = (((∑ e ∈ s, ∑ k, hR e k * wR k) * (1 / r) : ℝ) : EReal) := by
    rw [Ideal.div_coe hr0, zero_add, EReal.coe_mul, coe_sum]
    congr 1
    refine Finset.sum_congr rfl fun e _ => ?_
    rw [coe_sum]
    refine Finset.sum_congr rfl fun k _ => ?_
    rw [EReal.coe_mul, hhR, hwR]
  -- so is the right side
  have hRt : (∑ k, Ideal.div ((0 : EReal) + ∑ e ∈ s, h e k) (r : EReal) * w k)
      = ((∑ k, ((∑ e ∈ s, hR e k) * (1 / r)) * wR k : ℝ) : EReal) := by
    rw [coe_sum]
    refine Finset.sum_congr rfl fun k _ => ?_
    rw [Ideal.div_coe hr0, zero_add, EReal.coe_mul, EReal.coe_mul, coe_sum, hwR]
    congr 2
    refine Finset.sum_congr rfl fun e _ => ?_
    rw [hhR]
  rw [hL, hRt]
  congr 1
  -- the identity over the reals: distribute, exchange the two sums, and reorder factors
  simp_rw [Finset.sum_mul]
  rw [Finset.sum_comm]
  refine Finset.sum_congr rfl fun k _ => ?_
  refine Finset.sum_congr rfl fun e _ => ?_
  ring

end Cert.AggregateLaw
-- ==== Proof.Sage.lean ====
/-
  Two layers of neighbour-mean graph convolution on 50000 nodes and 800000 edges, entry by entry, and the one law that
  joins the kernel's arrangement of the second layer to the reference's.

  Edge e goes from the source row srcRow e (the source index, a negative one first wrapped by 50000, then clamped into
  the table) to its destination; inEdges n is the set of edges whose destination index is n (an edge whose destination is
  outside the table is in no set).  The degree of n, counted as a sum of ones and clamped below by one, is degc n.
      nbr n j     = (sum over e in inEdges n of feat (srcRow e, j)) / degc n                     neighbour mean, layer 1
      hidden n k  = max( sum_j feat (n, j) ws1 (j, k) + sum_j nbr n j wn1 (j, k) + b1 k , 0 )    the hidden row
  The reference aggregates hidden rows and then projects them with the layer-2 neighbour weights; the kernel projects
  every hidden row first and aggregates the projected rows.  With every input entry a real number the hidden rows are real
  and the degree is a real at least one, so the two agree by linearity of the finite sums.
-/
import proofs.«145372_j29901562315015_2_alg».proof.Proof.LibAggregateLaw
import Idealize.ShloMosaic.PureOps.Ideal.Laws
import Idealize.ShloMosaic.Lib.ValueIdx

noncomputable section

open scoped BigOperators

namespace Cert.Sage

open Idealize.ShloMosaic Idealize.ShloMosaic.ValueIdx Cert.AggregateLaw

/-- The word of the float 1.0 denotes the real 1. -/
theorem ofBits_one : Ideal.ofBits .f32 0x3F800000#32 = 1 := by
  simp [Ideal.ofBits, Ideal.ieee, -EReal.coe_mul]; norm_num

/-- A negative index wraps around once by the number of rows. -/
def wrap (w : BitVec 32) : BitVec 32 := Scalar.select (IntOp.cmpi .slt w 0#32) (IntOp.addi w 50000#32) w

/-- The table row edge e reads: its wrapped source index, clamped into the table. -/
def srcRow (src : IVec (⟨1, ![800000]⟩ : Shape) 32) (e : Fin 800000) : Fin 50000 :=
  ⟨min (wrap (src (ix1 e))).toInt.toNat (50000 - 1), by omega⟩

/-- The edges that end at node n. -/
def inEdges (dst : IVec (⟨1, ![800000]⟩ : Shape) 32) (n : Fin 50000) : Finset (Fin 800000) :=
  Finset.univ.filter fun e => (dst (ix1 e)).toInt = (n.val : Int)

/-- The degree of node n, clamped below by one. -/
def degc (dst : IVec (⟨1, ![800000]⟩ : Shape) 32) (n : Fin 50000) : EReal :=
  max ((0 : EReal) + ∑ _e ∈ inEdges dst n, (1 : EReal)) 1

section
variable (src dst : IVec (⟨1, ![800000]⟩ : Shape) 32)
  (feat : (⟨2, ![50000, 256]⟩ : Shape).Idx → EReal) (ws1 wn1 : (⟨2, ![256, 256]⟩ : Shape).Idx → EReal)
  (b1 : (⟨1, ![256]⟩ : Shape).Idx → EReal) (ws2 wn2 : (⟨2, ![256, 128]⟩ : Shape).Idx → EReal)
  (b2 : (⟨1, ![128]⟩ : Shape).Idx → EReal)

/-- The mean of the neighbours' features. -/
def nbr (n : Fin 50000) (j : Fin 256) : EReal :=
  Ideal.div ((0 : EReal) + ∑ e ∈ inEdges dst n, feat (ix2 (srcRow src e) j)) (degc dst n)

/-- The hidden row. -/
def hidden (n : Fin 50000) (k : Fin 256) : EReal :=
  max (((∑ j : Fin 256, feat (ix2 n j) * ws1 (ix2 j k)) + (∑ j : Fin 256, nbr src dst feat n j * wn1 (ix2 j k)))
    + b1 (ix1 k)) 0

/-- The kernel's arrangement of the result: the projected hidden rows are aggregated. -/
def outKernel (n : Fin 50000) (c : Fin 128) : EReal :=
  ((∑ k : Fin 256, hidden src dst feat ws1 wn1 b1 n k * ws2 (ix2 k c))
    + Ideal.div ((0 : EReal) + ∑ e ∈ inEdges dst n,
        ∑ k : Fin 256, hidden src dst feat ws1 wn1 b1 (srcRow src e) k * wn2 (ix2 k c)) (degc dst n))
    + b2 (ix1 c)

/-- The reference's arrangement: the aggregated hidden rows are projected. -/
def outRef (n : Fin 50000) (c : Fin 128) : EReal :=
  ((∑ k : Fin 256, hidden src dst feat ws1 wn1 b1 n k * ws2 (ix2 k c))
    + ∑ k : Fin 256, Ideal.div ((0 : EReal) + ∑ e ∈ inEdges dst n, hidden src dst feat ws1 wn1 b1 (srcRow src e) k)
        (degc dst n) * wn2 (ix2 k c))
    + b2 (ix1 c)

variable {src dst feat ws1 wn1 b1 ws2 wn2 b2}

/-- The neighbour mean of real features is real. -/
theorem isReal_nbr (hf : ∀ i, IsReal (feat i)) (n : Fin 50000) (j : Fin 256) : IsReal (nbr src dst feat n j) := by
  obtain ⟨r, hr, e⟩ := isReal_count_max_one (inEdges dst n)
  unfold nbr degc
  rw [e]
  exact isReal_div (isReal_add isReal_zero (isReal_sum _ _ fun e _ => hf _)) hr

/-- The hidden row of real inputs is real. -/
theorem isReal_hidden (hf : ∀ i, IsReal (feat i)) (hs : ∀ i, IsReal (ws1 i)) (hn : ∀ i, IsReal (wn1 i))
    (hb : ∀ i, IsReal (b1 i)) (n : Fin 50000) (k : Fin 256) : IsReal (hidden src dst feat ws1 wn1 b1 n k) := by
  unfold hidden
  refine isReal_max (isReal_add (isReal_add ?_ ?_) (hb _)) isReal_zero
  · exact isReal_sum _ _ fun j _ => isReal_mul (hf _) (hs _)
  · exact isReal_sum _ _ fun j _ => isReal_mul (isReal_nbr hf n j) (hn _)

/-- THE LAW: with real inputs the two arrangements of the second layer give the same entry. -/
theorem outKernel_eq_outRef (hf : ∀ i, IsReal (feat i)) (hs : ∀ i, IsReal (ws1 i)) (hn : ∀ i, IsReal (wn1 i))
    (hb : ∀ i, IsReal (b1 i)) (hw : ∀ i, IsReal (wn2 i)) (n : Fin 50000) (c : Fin 128) :
    outKernel src dst feat ws1 wn1 b1 ws2 wn2 b2 n c = outRef src dst feat ws1 wn1 b1 ws2 wn2 b2 n c := by
  obtain ⟨r, hr, e⟩ := isReal_count_max_one (inEdges dst n)
  unfold outKernel outRef degc
  rw [e]
  rw [agg_project (inEdges dst n) (fun e k => hidden src dst feat ws1 wn1 b1 (srcRow src e) k)
    (fun k => wn2 (ix2 k c)) r (fun e k => isReal_hidden hf hs hn hb _ k) (fun k => hw _) hr]

end

end Cert.Sage

end
-- ==== Proof.LibRowGatherScatter.lean ====
/-
  A row gather and a row scatter-add of a rank-2 array, each read at one index, for any extents: a table of
  N rows and C columns, E edges, each edge carrying one row index.

  The gather x[idx] reads, for edge e and column c, the table at row idx[e] — the index word read as a
  signed integer and clamped into [0, N − 1] — and column c. The scatter-add x.at[idx].add(upd) adds to the
  table's element (n, c) every update element (e, c) whose edge's index, read signed and NOT clamped, is
  exactly n; an edge whose index is outside [0, N) contributes nothing. Both are obtained by evaluating the
  gather's operand index and the scatter's result index on the two axes.
-/
import Idealize.ShloMosaic.Lib.ValueIdx

noncomputable section

open scoped BigOperators

namespace Cert.RowGatherScatter

open Idealize.ShloMosaic Idealize.ShloMosaic.ValueIdx

/-! ## The row gather -/

/-- x[idx] of a table [N, C] at E row indices: offset_dims [1], collapsed_slice_dims [0], start_index_map [0],
    index_vector_dim 1, slice_sizes [1, C]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The table row edge e reads: its start index, read signed and clamped into [0, N-1]. -/
def gatherRow {E w : Nat} (N : Nat) (hN : 0 < N) (idx : IVec ⟨2, ![E, 1]⟩ w) (e : Fin E) : Fin N :=
  ⟨min (idx (ix2 e (0 : Fin 1))).toInt.toNat (N - 1), by omega⟩

/-- THE ROW GATHER READ AT (e, c): the table at the row edge e's index names (signed, clamped) and column c. -/
theorem rowGather_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (gatherRow N hN idx e) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = _
    rw [GatherDims.batchCoord_eq_zero _ _ _ List.not_mem_nil]
    have hst : (rowGatherDims N E C wf).start (ix2 e c) idx 1 = 0 := by
      unfold GatherDims.start
      rw [dif_neg (show (1 : Fin 2) ∉ (rowGatherDims N E C wf).startIndexMap from
        (by decide : (1 : Fin 2) ∉ [(0 : Fin 2)]))]
    have hoff : (rowGatherDims N E C wf).offCoord (ix2 e c) 1 = c.val := by
      unfold GatherDims.offCoord
      rw [dif_pos (show (1 : Fin 2) ∈ (rowGatherDims N E C wf).sKept from
        (GatherDims.mem_sKept _ _).mpr ⟨(by decide : (1 : Fin 2) ∉ [(0 : Fin 2)]), List.not_mem_nil⟩)]
      rfl
    rw [hst, hoff]
    simp

/-! ## The row scatter-add -/

/-- x.at[idx].add(upd) on rows: update_window_dims [1], inserted_window_dims [0], scatter_dims_to_operand_dims [0],
    index_vector_dim 1. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Scatter
variable {N E C w : Nat} (wf : ScatterDims.WF ⟨2, ![N, C]⟩ ⟨2, ![E, 1]⟩ ⟨2, ![E, C]⟩ [1] [0] [0] 1)

/-- On the row axis the window starts at the edge's index word, read signed. -/
theorem rowScatter_start0 (idx : IVec ⟨2, ![E, 1]⟩ w) (e : Fin E) (c' : Fin C) :
    (rowScatterDims N E C wf).start (ix2 e c') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e c') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index names, the window starts at 0. -/
theorem rowScatter_start1 (idx : IVec ⟨2, ![E, 1]⟩ w) (e : Fin E) (c' : Fin C) :
    (rowScatterDims N E C wf).start (ix2 e c') idx 1 = 0 := by
  unfold ScatterDims.start
  rw [dif_neg (show (1 : Fin 2) ∉ (rowScatterDims N E C wf).scatterDimsToOperandDims from
    (by decide : (1 : Fin 2) ∉ [(0 : Fin 2)]))]

/-- The row axis is an inserted one: its window coordinate is 0. -/
theorem rowScatter_window0 (e : Fin E) (c' : Fin C) :
    (rowScatterDims N E C wf).window (ix2 e c') 0 = 0 := by
  unfold ScatterDims.window
  rw [dif_neg (show (0 : Fin 2) ∉ (rowScatterDims N E C wf).sKept from
    (by decide : (0 : Fin 2) ∉ (List.finRange 2).filter (· ∉ [(0 : Fin 2)])))]

/-- The column axis is the one window axis: its window coordinate is the update's column. -/
theorem rowScatter_window1 (e : Fin E) (c' : Fin C) :
    (rowScatterDims N E C wf).window (ix2 e c') 1 = c'.val := by
  unfold ScatterDims.window
  rw [dif_pos (show (1 : Fin 2) ∈ (rowScatterDims N E C wf).sKept from
    (by decide : (1 : Fin 2) ∈ (List.finRange 2).filter (· ∉ [(0 : Fin 2)])))]
  rfl

/-- Where update (e, c') lands: row = the scatter index of e read SIGNED and NOT clamped (dropped when outside
    [0, N)), column c'. -/
theorem rowScatter_resultIdx_eq_some_iff (idx : IVec ⟨2, ![E, 1]⟩ w) (e : Fin E) (c' : Fin C) (n : Fin N) (c : Fin C) :
    (rowScatterDims N E C wf).resultIdx? (ix2 e c') idx = some (ix2 n c)
      ↔ ((idx (ix2 e (0 : Fin 1))).toInt = (n.val : Int) ∧ c' = c) := by
  have hs0 := rowScatter_start0 wf idx e c'
  have hs1 := rowScatter_start1 wf idx e c'
  have hw0 := rowScatter_window0 wf e c'
  have hw1 := rowScatter_window1 wf e c'
  have hn := n.isLt
  have hc' := c'.isLt
  unfold ScatterDims.resultIdx?
  split
  · rename_i h
    rw [Option.some.injEq]
    constructor
    · intro heq
      have h0 := congrArg Fin.val (congrFun heq 0)
      have h1 := congrArg Fin.val (congrFun heq 1)
      have b0 := (h 0).1
      simp only [hs0, hw0] at h0 b0
      simp only [hs1, hw1] at h1
      refine ⟨?_, Fin.ext ?_⟩
      · change ((idx (ix2 e (0 : Fin 1))).toInt + ((0 : Nat) : Int)).toNat = n.val at h0
        omega
      · change ((0 : Int) + (c'.val : Int)).toNat = c.val at h1
        omega
    · rintro ⟨h0, rfl⟩
      funext a
      refine Fin.ext ?_
      match a with
      | ⟨0, _⟩ =>
        show ((rowScatterDims N E C wf).start (ix2 e c') idx 0 + ((rowScatterDims N E C wf).window (ix2 e c') 0 : Int)).toNat = n.val
        rw [hs0, hw0, h0]; omega
      | ⟨1, _⟩ =>
        show ((rowScatterDims N E C wf).start (ix2 e c') idx 1 + ((rowScatterDims N E C wf).window (ix2 e c') 1 : Int)).toNat = c'.val
        rw [hs1, hw1]; omega
  · rename_i h
    constructor
    · intro heq; exact absurd heq (by simp)
    · rintro ⟨h0, rfl⟩
      refine absurd (fun a => ?_) h
      match a with
      | ⟨0, _⟩ =>
        show 0 ≤ (rowScatterDims N E C wf).start (ix2 e c') idx 0 + ((rowScatterDims N E C wf).window (ix2 e c') 0 : Int)
          ∧ (rowScatterDims N E C wf).start (ix2 e c') idx 0 + ((rowScatterDims N E C wf).window (ix2 e c') 0 : Int) < (N : Int)
        rw [hs0, hw0, h0]; omega
      | ⟨1, _⟩ =>
        show 0 ≤ (rowScatterDims N E C wf).start (ix2 e c') idx 1 + ((rowScatterDims N E C wf).window (ix2 e c') 1 : Int)
          ∧ (rowScatterDims N E C wf).start (ix2 e c') idx 1 + ((rowScatterDims N E C wf).window (ix2 e c') 1 : Int) < (C : Int)
        rw [hs1, hw1]; omega

end Scatter

/-- THE ROW SCATTER-ADD AT (n, c), at the ideal instance: the operand's element plus the sum, over the edges whose
    index is n, of the update's element in column c. -/
theorem rowScatterAdd_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : Int)),
          upd (ix2 e c) := by
  show Ideal.hostScatterAdd (rowScatterDims N E C wf) x idx upd (ix2 n c) = _
  unfold Ideal.hostScatterAdd
  congr 1
  refine Finset.sum_nbij' (fun j => (j 0 : Fin E)) (fun e => ix2 e c) ?_ ?_ ?_ ?_ ?_
  · intro j hj
    have h := (Finset.mem_filter.mp hj).2
    rw [eq_ix2 j] at h
    exact Finset.mem_filter.mpr ⟨Finset.mem_univ _, ((rowScatter_resultIdx_eq_some_iff wf idx _ _ n c).mp h).1⟩
  · intro e he
    have h := (Finset.mem_filter.mp he).2
    exact Finset.mem_filter.mpr ⟨Finset.mem_univ _, (rowScatter_resultIdx_eq_some_iff wf idx e c n c).mpr ⟨h, rfl⟩⟩
  · intro j hj
    have h := (Finset.mem_filter.mp hj).2
    rw [eq_ix2 j] at h
    have hc := ((rowScatter_resultIdx_eq_some_iff wf idx _ _ n c).mp h).2
    subst hc
    exact (eq_ix2 j).symm
  · intro e _
    rfl
  · intro j hj
    have h := (Finset.mem_filter.mp hj).2
    rw [eq_ix2 j] at h
    have hc := ((rowScatter_resultIdx_eq_some_iff wf idx _ _ n c).mp h).2
    subst hc
    exact congrArg upd (eq_ix2 j)

/-! ## The flat scatter-add: a vector of E updates added into a vector of N entries -/

/-- x.at[idx].add(upd) for a flat table [N] and a flat update vector [E], the indices kept as a column [E, 1]:
    update_window_dims [], inserted_window_dims [0], scatter_dims_to_operand_dims [0], index_vector_dim 1. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the table's one axis the window starts at the edge's index word, read signed. -/
theorem vecScatter_start0 {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The table's one axis is an inserted one: its window coordinate is 0. -/
theorem vecScatter_window0 {N E : Nat} (wf : ScatterDims.WF ⟨1, ![N]⟩ ⟨2, ![E, 1]⟩ ⟨1, ![E]⟩ [] [0] [0] 1) (e : Fin E) :
    (vecScatterDims N E wf).window (ix1 e) 0 = 0 := by
  unfold ScatterDims.window
  rw [dif_neg (show (0 : Fin 1) ∉ (vecScatterDims N E wf).sKept from
    (by decide : (0 : Fin 1) ∉ (List.finRange 1).filter (· ∉ [(0 : Fin 1)])))]

/-- Where update e lands: the entry its scatter index names, read SIGNED and NOT clamped (dropped when outside
    [0, N)). -/
theorem vecScatter_resultIdx_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : Int) := by
  have hs0 := vecScatter_start0 wf idx e
  have hw0 := vecScatter_window0 wf e
  have hn := n.isLt
  unfold ScatterDims.resultIdx?
  split
  · rename_i h
    rw [Option.some.injEq]
    constructor
    · intro heq
      have h0 := congrArg Fin.val (congrFun heq 0)
      have b0 := (h 0).1
      simp only [hs0, hw0] at h0 b0
      change ((idx (ix2 e (0 : Fin 1))).toInt + ((0 : Nat) : Int)).toNat = n.val at h0
      omega
    · intro h0
      funext a
      refine Fin.ext ?_
      match a with
      | ⟨0, _⟩ =>
        show ((vecScatterDims N E wf).start (ix1 e) idx 0 + ((vecScatterDims N E wf).window (ix1 e) 0 : Int)).toNat = n.val
        rw [hs0, hw0, h0]; omega
  · rename_i h
    constructor
    · intro heq; exact absurd heq (by simp)
    · intro h0
      refine absurd (fun a => ?_) h
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [hs0, hw0, h0]; omega

/-- THE FLAT SCATTER-ADD AT n, at the ideal instance: the operand's entry plus the sum, over the edges whose index
    is n, of the update's entry. -/
theorem vecScatterAdd_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (vecScatterDims N E wf) x idx upd (ix1 n)
      = x (ix1 n) + ∑ e ∈ Finset.univ.filter (fun e : Fin E => (idx (ix2 e (0 : Fin 1))).toInt = (n.val : Int)),
          upd (ix1 e) := by
  show Ideal.hostScatterAdd (vecScatterDims N E wf) x idx upd (ix1 n) = _
  unfold Ideal.hostScatterAdd
  congr 1
  refine Finset.sum_nbij' (fun j => (j 0 : Fin E)) (fun e => ix1 e) ?_ ?_ ?_ ?_ ?_
  · intro j hj
    have h := (Finset.mem_filter.mp hj).2
    rw [eq_ix1 j] at h
    exact Finset.mem_filter.mpr ⟨Finset.mem_univ _, (vecScatter_resultIdx_eq_some_iff wf idx _ n).mp h⟩
  · intro e he
    have h := (Finset.mem_filter.mp he).2
    exact Finset.mem_filter.mpr ⟨Finset.mem_univ _, (vecScatter_resultIdx_eq_some_iff wf idx e n).mpr h⟩
  · intro j _
    exact (eq_ix1 j).symm
  · intro e _
    rfl
  · intro j _
    exact congrArg upd (eq_ix1 j)

end Cert.RowGatherScatter

end
-- ==== Proof.RefValue.lean ====
/-
The reference program's result, entry by entry.

The reference computes two layers of neighbour-mean graph convolution.  Each stage of it is read
at one index and identified with the closed formula of the same name: the clamped in-degree, the
wrapped source row of an edge, the neighbour mean of the features, the hidden row after the first
layer, and at last the output entry, whose second layer aggregates hidden rows before projecting
them.  A gather reads the table at the clamped source row of the edge; a scatter-add contributes
to node n exactly the edges whose destination index is n.
-/
import proofs.«145372_j29901562315015_2_alg».proof.Proof.Gen.ReferenceIdeal.Read
import proofs.«145372_j29901562315015_2_alg».proof.Proof.Sage
import proofs.«145372_j29901562315015_2_alg».proof.Proof.LibRowGatherScatter

noncomputable section

open scoped BigOperators

namespace Cert.ReferenceIdeal.RefValue

open Cert.ReferenceIdeal Cert.ReferenceIdeal.Gen Idealize.ShloMosaic Idealize.ShloMosaic.ValueIdx
open Cert.RowGatherScatter

/-! ## The degree -/

/-- The destination column at edge e is the destination index of e. -/
theorem dstCol_apply (x8 : (⟨S800000, .i32⟩ : BufTy).Contents (Elt Ideal)) (e : Fin 800000) :
    Read.val_main_v12 (F := Ideal) x8 (ix2 e (0 : Fin 1)) = x8 (ix1 e) := by
  rw [Read.val_main_v12_apply]
  congr 1
  funext a
  match a with
  | ⟨0, _⟩ => rfl

/-- The scatter-add of ones over the destination indices counts the edges that end at n. -/
theorem count_apply (x8 : (⟨S800000, .i32⟩ : BufTy).Contents (Elt Ideal)) (n : Fin 50000) :
    Read.val_main_v13 (F := Ideal) x8 (ix1 n) = (0 : EReal) + ∑ _e ∈ Cert.Sage.inEdges x8 n, (1 : EReal) := by
  unfold Read.val_main_v13
  refine (vecScatterAdd_apply (φ := .f32) Facts₀.scatter_S50000_S800000x1_S800000_n_0_0_1_wf _ _ _ n).trans ?_
  have h0 : Read.val_main_v11 (F := Ideal) (ix1 n) = (0 : EReal) := by
    rw [Read.val_main_v11_apply, Read.val_main_cst_2_apply]
    exact Ideal.ofBits_zero_f32
  have hs : (Finset.univ.filter fun e : Fin 800000 =>
      (Read.val_main_v12 (F := Ideal) x8 (ix2 e (0 : Fin 1))).toInt = (n.val : Int)) = Cert.Sage.inEdges x8 n := by
    unfold Cert.Sage.inEdges
    refine Finset.filter_congr fun e _ => ?_
    rw [dstCol_apply]
  rw [h0, hs]
  refine congrArg (fun z : EReal => (0 : EReal) + z) (Finset.sum_congr rfl fun e _ => ?_)
  rw [Read.val_main_v10_apply, Read.val_main_cst_1_apply]
  exact Cert.Sage.ofBits_one

/-- The clamped degree: the count of in-edges, at least one. -/
theorem deg_apply (x8 : (⟨S800000, .i32⟩ : BufTy).Contents (Elt Ideal)) (n : Fin 50000) :
    Read.val_main_v15 (F := Ideal) x8 (ix1 n) = Cert.Sage.degc x8 n := by
  rw [Read.val_main_v15_apply, count_apply]
  have h1 : Read.val_main_v14 (F := Ideal) (ix1 n) = (1 : EReal) := by
    rw [Read.val_main_v14_apply, Read.val_main_cst_3_apply]
    exact Cert.Sage.ofBits_one
  rw [h1]
  rfl

/-- The degree as a column. -/
theorem degCol_apply (x8 : (⟨S800000, .i32⟩ : BufTy).Contents (Elt Ideal)) (n : Fin 50000) :
    Read.val_main_v16 (F := Ideal) x8 (ix2 n (0 : Fin 1)) = Cert.Sage.degc x8 n := by
  rw [Read.val_main_v16_apply, ← deg_apply]
  congr 1
  funext a
  match a with
  | ⟨0, _⟩ => rfl

/-- The degree broadcast along the feature axis. -/
theorem degWide_apply (x8 : (⟨S800000, .i32⟩ : BufTy).Contents (Elt Ideal)) (n : Fin 50000) (j : Fin 256) :
    Read.val_main_v17 (F := Ideal) x8 (ix2 n j) = Cert.Sage.degc x8 n := by
  rw [Read.val_main_v17_apply, ← degCol_apply]
  congr 1
  funext a
  match a with
  | ⟨0, _⟩ => rfl
  | ⟨1, _⟩ => rfl

/-! ## The source row of an edge -/

/-- The source column at edge e is the source index of e, a negative one wrapped around once. -/
theorem srcCol_apply (x7 : (⟨S800000, .i32⟩ : BufTy).Contents (Elt Ideal)) (e : Fin 800000) :
    Read.val_main_v5 (F := Ideal) x7 (ix2 e (0 : Fin 1)) = Cert.Sage.wrap (x7 (ix1 e)) := by
  rw [Read.val_main_v5_apply]
  have hi : Read.idx_main_v5 (ix2 e (0 : Fin 1)) = ix1 e := by
    funext a
    match a with
    | ⟨0, _⟩ => rfl
  rw [hi, Read.val_main_v4_apply, Read.val_main_v1_apply, Read.val_main_v3_apply, Read.val_main_v0_apply,
    Read.val_main_c_apply, Read.val_main_v2_apply, Read.val_main_c_0_apply]
  rfl

/-- The table row the gather reads for edge e is the wrapped source index clamped into the table. -/
theorem gatherRow_src (x7 : (⟨S800000, .i32⟩ : BufTy).Contents (Elt Ideal)) (e : Fin 800000) :
    gatherRow 50000 (by decide) (Read.val_main_v5 (F := Ideal) x7) e = Cert.Sage.srcRow x7 e := by
  unfold gatherRow Cert.Sage.srcRow
  refine Fin.ext ?_
  show min (Read.val_main_v5 (F := Ideal) x7 (ix2 e (0 : Fin 1))).toInt.toNat (50000 - 1)
    = min (Cert.Sage.wrap (x7 (ix1 e))).toInt.toNat (50000 - 1)
  rw [srcCol_apply]

/-! ## Gathering rows and adding them up -/

/-- Gathering rows of a table along the source column: edge e reads the row of its source. -/
theorem gatherRows_apply (t : (⟨S50000x256, .f32⟩ : BufTy).Contents (Elt Ideal))
    (x7 : (⟨S800000, .i32⟩ : BufTy).Contents (Elt Ideal)) (e : Fin 800000) (j : Fin 256) :
    Host.gather gather_S50000x256_S800000x1_S800000x256_1_0_n_n_0_1_1256 t (Read.val_main_v5 (F := Ideal) x7) (ix2 e j)
      = t (ix2 (Cert.Sage.srcRow x7 e) j) := by
  rw [← gatherRow_src]
  exact rowGather_apply (by decide) Facts₀.gather_S50000x256_S800000x1_S800000x256_1_0_n_n_0_1_1256_wf t
    (Read.val_main_v5 (F := Ideal) x7) e j

/-- The second destination column is the destination index too. -/
theorem dstCol8_apply (x8 : (⟨S800000, .i32⟩ : BufTy).Contents (Elt Ideal)) (e : Fin 800000) :
    Read.val_main_v8 (F := Ideal) x8 (ix2 e (0 : Fin 1)) = x8 (ix1 e) := by
  rw [Read.val_main_v8_apply]
  congr 1
  funext a
  match a with
  | ⟨0, _⟩ => rfl

/-- Scatter-adding rows into a table of zeros along the destination column: node n receives the rows of the
    edges that end at n. -/
theorem scatterRows_apply (u : (⟨S800000x256, .f32⟩ : BufTy).Contents (Elt Ideal))
    (x8 : (⟨S800000, .i32⟩ : BufTy).Contents (Elt Ideal)) (n : Fin 50000) (j : Fin 256) :
    Host.scatterAdd (F := Ideal) (φ := .f32) scatter_S50000x256_S800000x1_S800000x256_1_0_0_1 (Read.val_main_v7 (F := Ideal))
        (Read.val_main_v8 (F := Ideal) x8) u (ix2 n j)
      = (0 : EReal) + ∑ e ∈ Cert.Sage.inEdges x8 n, u (ix2 e j) := by
  refine (rowScatterAdd_apply (φ := .f32) Facts₀.scatter_S50000x256_S800000x1_S800000x256_1_0_0_1_wf _ _ _ n j).trans ?_
  have h0 : Read.val_main_v7 (F := Ideal) (ix2 n j) = (0 : EReal) := by
    rw [Read.val_main_v7_apply, Read.val_main_cst_apply]
    exact Ideal.ofBits_zero_f32
  have hs : (Finset.univ.filter fun e : Fin 800000 =>
      (Read.val_main_v8 (F := Ideal) x8 (ix2 e (0 : Fin 1))).toInt = (n.val : Int)) = Cert.Sage.inEdges x8 n := by
    unfold Cert.Sage.inEdges
    refine Finset.filter_congr fun e _ => ?_
    rw [dstCol8_apply]
  rw [h0, hs]

/-! ## The neighbour mean -/

/-- The first layer's neighbour mean. -/
theorem nbr_apply (x0 : (⟨S50000x256, .f32⟩ : BufTy).Contents (Elt Ideal))
    (x7 x8 : (⟨S800000, .i32⟩ : BufTy).Contents (Elt Ideal)) (n : Fin 50000) (j : Fin 256) :
    Read.val_main_v18 (F := Ideal) x0 x7 x8 (ix2 n j) = Cert.Sage.nbr x7 x8 x0 n j := by
  have hg : ∀ e : Fin 800000, Read.val_main_v6 (F := Ideal) x0 x7 (ix2 e j) = x0 (ix2 (Cert.Sage.srcRow x7 e) j) :=
    fun e => gatherRows_apply x0 x7 e j
  rw [Read.val_main_v18_apply, degWide_apply]
  unfold Read.val_main_v9
  rw [scatterRows_apply]
  simp only [hg]
  rfl

/-! ## The hidden row -/

/-- The first bias, broadcast over the nodes. -/
theorem bias1_apply (x3 : (⟨S256, .f32⟩ : BufTy).Contents (Elt Ideal)) (n : Fin 50000) (k : Fin 256) :
    Read.val_main_v23 (F := Ideal) x3 (ix2 n k) = x3 (ix1 k) := by
  rw [Read.val_main_v23_apply, Read.val_main_v22_apply]
  congr 1
  funext a
  match a with
  | ⟨0, _⟩ => rfl

/-- The features times the first self weights. -/
theorem self1_apply (x0 : (⟨S50000x256, .f32⟩ : BufTy).Contents (Elt Ideal))
    (x1 : (⟨S256x256, .f32⟩ : BufTy).Contents (Elt Ideal)) (n : Fin 50000) (k : Fin 256) :
    Read.val_main_v19 (F := Ideal) x0 x1 (ix2 n k) = ∑ j : Fin 256, x0 (ix2 n j) * x1 (ix2 j k) := by
  rw [Read.val_main_v19_apply]
  refine Finset.sum_congr rfl fun j _ => ?_
  have hl : Read.lidx_main_v19 (ix2 n k) j = ix2 n j := by
    funext a
    match a with
    | ⟨0, _⟩ => rfl
    | ⟨1, _⟩ => rfl
  have hr : Read.ridx_main_v19 (ix2 n k) j = ix2 j k := by
    funext a
    match a with
    | ⟨0, _⟩ => rfl
    | ⟨1, _⟩ => rfl
  rw [hl, hr]

/-- The neighbour mean times the first neighbour weights. -/
theorem neigh1_apply (x0 : (⟨S50000x256, .f32⟩ : BufTy).Contents (Elt Ideal))
    (x2 : (⟨S256x256, .f32⟩ : BufTy).Contents (Elt Ideal))
    (x7 x8 : (⟨S800000, .i32⟩ : BufTy).Contents (Elt Ideal)) (n : Fin 50000) (k : Fin 256) :
    Read.val_main_v20 (F := Ideal) x0 x2 x7 x8 (ix2 n k)
      = ∑ j : Fin 256, Cert.Sage.nbr x7 x8 x0 n j * x2 (ix2 j k) := by
  rw [Read.val_main_v20_apply]
  refine Finset.sum_congr rfl fun j _ => ?_
  have hl : Read.lidx_main_v20 (ix2 n k) j = ix2 n j := by
    funext a
    match a with
    | ⟨0, _⟩ => rfl
    | ⟨1, _⟩ => rfl
  have hr : Read.ridx_main_v20 (ix2 n k) j = ix2 j k := by
    funext a
    match a with
    | ⟨0, _⟩ => rfl
    | ⟨1, _⟩ => rfl
  rw [hl, hr, nbr_apply]

/-- The hidden row: self term plus neighbour term plus bias, clamped below by zero. -/
theorem hidden_apply (x0 : (⟨S50000x256, .f32⟩ : BufTy).Contents (Elt Ideal))
    (x1 x2 : (⟨S256x256, .f32⟩ : BufTy).Contents (Elt Ideal)) (x3 : (⟨S256, .f32⟩ : BufTy).Contents (Elt Ideal))
    (x7 x8 : (⟨S800000, .i32⟩ : BufTy).Contents (Elt Ideal)) (n : Fin 50000) (k : Fin 256) :
    Read.val_main_v25 (F := Ideal) x0 x1 x2 x3 x7 x8 (ix2 n k) = Cert.Sage.hidden x7 x8 x0 x1 x2 x3 n k := by
  have hz : Read.val_main_call0_v0 (F := Ideal) (ix2 n k) = (0 : EReal) := by
    rw [Read.val_main_call0_v0_apply, Read.val_main_call0_cst_apply]
    exact Ideal.ofBits_zero_f32
  rw [Read.val_main_v25_apply, Read.val_main_v24_apply, Read.val_main_v21_apply, self1_apply, neigh1_apply,
    bias1_apply, hz]
  unfold Cert.Sage.hidden
  rfl

/-! ## The second layer and the result -/

/-- The second bias, broadcast over the nodes. -/
theorem bias2_apply (x6 : (⟨S128, .f32⟩ : BufTy).Contents (Elt Ideal)) (n : Fin 50000) (c : Fin 128) :
    Read.val_main_v49 (F := Ideal) x6 (ix2 n c) = x6 (ix1 c) := by
  rw [Read.val_main_v49_apply, Read.val_main_v48_apply]
  congr 1
  funext a
  match a with
  | ⟨0, _⟩ => rfl

/-- The hidden rows times the second self weights. -/
theorem self2_apply (x0 : (⟨S50000x256, .f32⟩ : BufTy).Contents (Elt Ideal))
    (x1 x2 : (⟨S256x256, .f32⟩ : BufTy).Contents (Elt Ideal)) (x3 : (⟨S256, .f32⟩ : BufTy).Contents (Elt Ideal))
    (x4 : (⟨S256x128, .f32⟩ : BufTy).Contents (Elt Ideal))
    (x7 x8 : (⟨S800000, .i32⟩ : BufTy).Contents (Elt Ideal)) (n : Fin 50000) (c : Fin 128) :
    Read.val_main_v45 (F := Ideal) x0 x1 x2 x3 x4 x7 x8 (ix2 n c)
      = ∑ k : Fin 256, Cert.Sage.hidden x7 x8 x0 x1 x2 x3 n k * x4 (ix2 k c) := by
  rw [Read.val_main_v45_apply]
  refine Finset.sum_congr rfl fun k _ => ?_
  have hl : Read.lidx_main_v45 (ix2 n c) k = ix2 n k := by
    funext a
    match a with
    | ⟨0, _⟩ => rfl
    | ⟨1, _⟩ => rfl
  have hr : Read.ridx_main_v45 (ix2 n c) k = ix2 k c := by
    funext a
    match a with
    | ⟨0, _⟩ => rfl
    | ⟨1, _⟩ => rfl
  rw [hl, hr, hidden_apply]

/-- The second layer's neighbour mean: the hidden rows of the in-edges' sources, added up and divided by the
    clamped degree.  Its index, degree and zero stages are second copies of the first layer's. -/
theorem nbr2_apply (x0 : (⟨S50000x256, .f32⟩ : BufTy).Contents (Elt Ideal))
    (x1 x2 : (⟨S256x256, .f32⟩ : BufTy).Contents (Elt Ideal)) (x3 : (⟨S256, .f32⟩ : BufTy).Contents (Elt Ideal))
    (x7 x8 : (⟨S800000, .i32⟩ : BufTy).Contents (Elt Ideal)) (n : Fin 50000) (k : Fin 256) :
    Read.val_main_v44 (F := Ideal) x0 x1 x2 x3 x7 x8 (ix2 n k)
      = Ideal.div ((0 : EReal) + ∑ e ∈ Cert.Sage.inEdges x8 n, Cert.Sage.hidden x7 x8 x0 x1 x2 x3 (Cert.Sage.srcRow x7 e) k)
          (Cert.Sage.degc x8 n) := by
  have hd : Read.val_main_v43 (F := Ideal) x8 (ix2 n k) = Cert.Sage.degc x8 n := degWide_apply x8 n k
  have hg : ∀ e : Fin 800000, Read.val_main_v32 (F := Ideal) x0 x1 x2 x3 x7 x8 (ix2 e k)
      = Cert.Sage.hidden x7 x8 x0 x1 x2 x3 (Cert.Sage.srcRow x7 e) k := fun e =>
    (gatherRows_apply (Read.val_main_v25 (F := Ideal) x0 x1 x2 x3 x7 x8) x7 e k).trans (hidden_apply x0 x1 x2 x3 x7 x8 _ k)
  have hs : Read.val_main_v35 (F := Ideal) x0 x1 x2 x3 x7 x8 (ix2 n k)
      = (0 : EReal) + ∑ e ∈ Cert.Sage.inEdges x8 n, Read.val_main_v32 (F := Ideal) x0 x1 x2 x3 x7 x8 (ix2 e k) :=
    scatterRows_apply (Read.val_main_v32 (F := Ideal) x0 x1 x2 x3 x7 x8) x8 n k
  rw [Read.val_main_v44_apply, hd, hs]
  simp only [hg]
  rfl

/-- The aggregated hidden rows times the second neighbour weights. -/
theorem neigh2_apply (x0 : (⟨S50000x256, .f32⟩ : BufTy).Contents (Elt Ideal))
    (x1 x2 : (⟨S256x256, .f32⟩ : BufTy).Contents (Elt Ideal)) (x3 : (⟨S256, .f32⟩ : BufTy).Contents (Elt Ideal))
    (x5 : (⟨S256x128, .f32⟩ : BufTy).Contents (Elt Ideal))
    (x7 x8 : (⟨S800000, .i32⟩ : BufTy).Contents (Elt Ideal)) (n : Fin 50000) (c : Fin 128) :
    Read.val_main_v46 (F := Ideal) x0 x1 x2 x3 x5 x7 x8 (ix2 n c)
      = ∑ k : Fin 256, Ideal.div ((0 : EReal) + ∑ e ∈ Cert.Sage.inEdges x8 n,
            Cert.Sage.hidden x7 x8 x0 x1 x2 x3 (Cert.Sage.srcRow x7 e) k) (Cert.Sage.degc x8 n) * x5 (ix2 k c) := by
  rw [Read.val_main_v46_apply]
  refine Finset.sum_congr rfl fun k _ => ?_
  have hl : Read.lidx_main_v46 (ix2 n c) k = ix2 n k := by
    funext a
    match a with
    | ⟨0, _⟩ => rfl
    | ⟨1, _⟩ => rfl
  have hr : Read.ridx_main_v46 (ix2 n c) k = ix2 k c := by
    funext a
    match a with
    | ⟨0, _⟩ => rfl
    | ⟨1, _⟩ => rfl
  rw [hl, hr, nbr2_apply]

/-- THE REFERENCE'S RESULT at node n and output column c is the closed formula: the hidden row projected by the
    second self weights, plus the mean of the neighbours' hidden rows projected by the second neighbour weights,
    plus the second bias. -/
theorem ref_apply (x0 : (⟨S50000x256, .f32⟩ : BufTy).Contents (Elt Ideal))
    (x1 x2 : (⟨S256x256, .f32⟩ : BufTy).Contents (Elt Ideal)) (x3 : (⟨S256, .f32⟩ : BufTy).Contents (Elt Ideal))
    (x4 x5 : (⟨S256x128, .f32⟩ : BufTy).Contents (Elt Ideal)) (x6 : (⟨S128, .f32⟩ : BufTy).Contents (Elt Ideal))
    (x7 x8 : (⟨S800000, .i32⟩ : BufTy).Contents (Elt Ideal)) (n : Fin 50000) (c : Fin 128) :
    Read.val_main_v50 (F := Ideal) x0 x1 x2 x3 x4 x5 x6 x7 x8 (ix2 n c)
      = Cert.Sage.outRef x7 x8 x0 x1 x2 x3 x4 x5 x6 n c := by
  rw [Read.val_main_v50_apply, Read.val_main_v47_apply, self2_apply, neigh2_apply, bias2_apply]
  unfold Cert.Sage.outRef
  rfl

end Cert.ReferenceIdeal.RefValue

end
-- ==== Proof.KernelHost.lean ====
/-
  What the kernel's region finds in the three arrays the host lines before it compute.

  Before the region the host program counts the degrees, forms the neighbour mean of the features and lays the layer-1
  bias as a single row.  The first two are, operation for operation, the terms the reference computes for its own first
  layer, so they are read at an entry by the reference's reading: the neighbour-mean array holds nbr n j at (n, j), and
  the degree column holds degc n at (n, 0).  The bias row holds b1 k in lane k.
-/
import proofs.«145372_j29901562315015_2_alg».proof.Proof.KernelHostTerms
import proofs.«145372_j29901562315015_2_alg».proof.Proof.RefValue
import proofs.«145372_j29901562315015_2_alg».proof.Proof.LibRowBias

set_option maxRecDepth 16384

noncomputable section

open scoped BigOperators

namespace Cert.KernelIdeal.HostValue

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The neighbour-mean array at (n, j). -/
theorem V_nbr_apply (c : Dev nD) (n : Fin 50000) (j : Fin 256) :
    V m c main_v18 (ix2 n j) = Cert.Sage.nbr (m ((c : Thread nD τ).loc main_arg7)) (m ((c : Thread nD τ).loc main_arg8))
      (m ((c : Thread nD τ).loc main_arg0)) n j := by
  rw [V_nbr]
  exact Cert.ReferenceIdeal.RefValue.nbr_apply _ _ _ n j

/-- The degree column at (n, 0). -/
theorem V_deg_apply (c : Dev nD) (n : Fin 50000) :
    V m c main_v6 (ix2 n (0 : Fin 1)) = Cert.Sage.degc (m ((c : Thread nD τ).loc main_arg8)) n := by
  rw [V_deg]
  exact Cert.ReferenceIdeal.RefValue.degCol_apply _ n

/-- The bias row in lane k. -/
theorem V_bias_apply (c : Dev nD) (k : Fin 256) :
    V m c main_v19 (ix2 (0 : Fin 1) k) = m ((c : Thread nD τ).loc main_arg3) (ix1 k) := by
  rw [V_bias]
  exact Cert.RowBias.castRow_apply _ shapeCasts_S256_S1x256 k

end Cert.KernelIdeal.HostValue

end
-- ==== Proof.KernelTail.lean ====
/-
  The host lines that follow the kernel's region, as one function of the arrays they read, and that function read at
  one entry.

  After the region the program holds two arrays of 50000 rows and 128 columns: the first output (each hidden row
  projected by the self weights) and the second output (each hidden row projected by the neighbour weights). The host
  lines then gather the second output's rows along the edges' source indices (a negative index first wrapped around by
  50000), add the gathered rows into a table of zeros along the edges' destination indices, divide each row by the
  node's clamped degree (kept as a column), add the first output and add the bias row. Read at (n, q) this is
      first (n, q) + (0 + sum over the edges e that end at n of second (source row of e, q)) / degree n + bias q.
-/
import proofs.«145372_j29901562315015_2_alg».proof.Proof.Gen.KernelIdeal
import proofs.«145372_j29901562315015_2_alg».proof.Proof.Sage
import proofs.«145372_j29901562315015_2_alg».proof.Proof.LibRowGatherScatter
import proofs.«145372_j29901562315015_2_alg».proof.Proof.LibHostRowOps
import proofs.«145372_j29901562315015_2_alg».proof.Proof.LibDenseRow
import Idealize.ShloMosaic.Lib.Pipeline.Value
import Idealize.ShloMosaic.Lib.ValueIdx
import Idealize.ShloMosaic.PureOps.Ideal.Laws

noncomputable section

open scoped BigOperators

namespace Cert.KernelIdeal.Tail

open Cert.KernelIdeal Cert.KernelIdeal.Facts₀ Idealize.ShloMosaic Idealize.ShloMosaic.ValueIdx
open Cert.RowGatherScatter

/-- The lines after the region as one function: the first output plus the neighbour mean of the second output's rows
    plus the bias row. -/
def tail (A7 A8 : (⟨S50000x128, .f32⟩ : BufTy).Contents (Elt Ideal)) (D : (⟨S50000x1, .f32⟩ : BufTy).Contents (Elt Ideal))
    (x6 : (⟨S128, .f32⟩ : BufTy).Contents (Elt Ideal)) (x7 x8 : (⟨S800000, .i32⟩ : BufTy).Contents (Elt Ideal)) :
    (⟨S50000x128, .f32⟩ : BufTy).Contents (Elt Ideal) :=
  addf (F := Ideal) (φ := .f32) (addf (F := Ideal) (φ := .f32) A7 (Host.divf (F := Ideal) (φ := .f32)
      (Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 x8)
        (Host.gather gather_S50000x128_S800000x1_S800000x128_1_0_n_n_0_1_1128 A8
          (broadcastInDim S800000x1 ![0] bcast_S800000_S800000x1_0
            (select (cmpi .slt x7 (broadcastInDim S800000 ![] bcast_S_S800000 (constantI S_ 32 0#32)))
              (addi x7 (broadcastInDim S800000 ![] bcast_S_S800000 (constantI S_ 32 50000#32))) x7))))
      (broadcastInDim S50000x128 ![0, 1] bcast_S50000x1_S50000x128_0_1 D)))
    (broadcastInDim S50000x128 ![0, 1] bcast_S1x128_S50000x128_0_1 (broadcastInDim S1x128 ![1] bcast_S128_S1x128_1 x6))

variable {α : Type}

/-- A flat vector of E entries laid as a column [E, 1] by the host's broadcast holds, in row e, the vector's entry e. -/
theorem hostFlatCol_apply {E : Nat} (v : (⟨1, ![E]⟩ : Shape).Idx → α)
    (h : (⟨1, ![E]⟩ : Shape).BroadcastsInDim (⟨2, ![E, 1]⟩ : Shape) ![0]) (e : Fin E) :
    broadcastInDim (⟨2, ![E, 1]⟩ : Shape) ![0] h v (ix2 e (0 : Fin 1)) = v (ix1 e) :=
  broadcastInDim_apply _ h v (ix2 e (0 : Fin 1)) (ix1 e) (fun a => match a with
    | ⟨0, _⟩ => by
        show e.val = if E = 1 then 0 else e.val
        split
        · have := e.isLt; omega
        · rfl)

/-- The source column at edge e is the source index of e, a negative one wrapped around once. -/
theorem srcCol_apply (x7 : (⟨S800000, .i32⟩ : BufTy).Contents (Elt Ideal)) (e : Fin 800000) :
    broadcastInDim S800000x1 ![0] bcast_S800000_S800000x1_0
        (select (cmpi .slt x7 (broadcastInDim S800000 ![] bcast_S_S800000 (constantI S_ 32 0#32)))
          (addi x7 (broadcastInDim S800000 ![] bcast_S_S800000 (constantI S_ 32 50000#32))) x7) (ix2 e (0 : Fin 1))
      = Cert.Sage.wrap (x7 (ix1 e)) := by
  refine (hostFlatCol_apply _ bcast_S800000_S800000x1_0 e).trans ?_
  rfl

/-- The table row the gather reads for edge e is the wrapped source index clamped into the table. -/
theorem gatherRow_src (x7 : (⟨S800000, .i32⟩ : BufTy).Contents (Elt Ideal)) (e : Fin 800000) :
    gatherRow 50000 (by decide) (broadcastInDim S800000x1 ![0] bcast_S800000_S800000x1_0
        (select (cmpi .slt x7 (broadcastInDim S800000 ![] bcast_S_S800000 (constantI S_ 32 0#32)))
          (addi x7 (broadcastInDim S800000 ![] bcast_S_S800000 (constantI S_ 32 50000#32))) x7)) e
      = Cert.Sage.srcRow x7 e := by
  unfold gatherRow Cert.Sage.srcRow
  refine Fin.ext ?_
  show min (broadcastInDim S800000x1 ![0] bcast_S800000_S800000x1_0
        (select (cmpi .slt x7 (broadcastInDim S800000 ![] bcast_S_S800000 (constantI S_ 32 0#32)))
          (addi x7 (broadcastInDim S800000 ![] bcast_S_S800000 (constantI S_ 32 50000#32))) x7)
        (ix2 e (0 : Fin 1))).toInt.toNat (50000 - 1)
    = min (Cert.Sage.wrap (x7 (ix1 e))).toInt.toNat (50000 - 1)
  rw [srcCol_apply]

/-- Gathering rows of a table along the source column: edge e reads the row of its source. -/
theorem gatherRows_apply (t : (⟨S50000x128, .f32⟩ : BufTy).Contents (Elt Ideal)) (x7 : (⟨S800000, .i32⟩ : BufTy).Contents (Elt Ideal))
    (e : Fin 800000) (q : Fin 128) :
    Host.gather gather_S50000x128_S800000x1_S800000x128_1_0_n_n_0_1_1128 t
        (broadcastInDim S800000x1 ![0] bcast_S800000_S800000x1_0
          (select (cmpi .slt x7 (broadcastInDim S800000 ![] bcast_S_S800000 (constantI S_ 32 0#32)))
            (addi x7 (broadcastInDim S800000 ![] bcast_S_S800000 (constantI S_ 32 50000#32))) x7)) (ix2 e q)
      = t (ix2 (Cert.Sage.srcRow x7 e) q) := by
  rw [← gatherRow_src]
  exact rowGather_apply (by decide) Facts₀.gather_S50000x128_S800000x1_S800000x128_1_0_n_n_0_1_1128_wf t _ e q

/-- Scatter-adding rows into a table of zeros along the destination column: node n receives the rows of the edges
    that end at n. -/
theorem scatterRows_apply (u : (⟨S800000x128, .f32⟩ : BufTy).Contents (Elt Ideal)) (x8 : (⟨S800000, .i32⟩ : BufTy).Contents (Elt Ideal))
    (n : Fin 50000) (q : Fin 128) :
    Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 x8) u (ix2 n q)
      = (0 : EReal) + ∑ e ∈ Cert.Sage.inEdges x8 n, u (ix2 e q) := by
  refine (rowScatterAdd_apply (φ := .f32) Facts₀.scatter_S50000x128_S800000x1_S800000x128_1_0_0_1_wf _ _ _ n q).trans ?_
  have h0 : broadcastInDim S50000x128 ![] bcast_S_S50000x128 (constant (F := Ideal) S_ .f32 0x00000000#32) (ix2 n q)
      = (0 : EReal) := Ideal.ofBits_zero_f32
  have hs : (Finset.univ.filter fun e : Fin 800000 =>
      (broadcastInDim S800000x1 ![0] bcast_S800000_S800000x1_0 x8 (ix2 e (0 : Fin 1))).toInt = (n.val : Int))
      = Cert.Sage.inEdges x8 n := by
    unfold Cert.Sage.inEdges
    refine Finset.filter_congr fun e _ => ?_
    rw [hostFlatCol_apply x8 bcast_S800000_S800000x1_0 e]
  rw [h0, hs]

/-- THE TAIL READ AT (n, q): the first output's entry, plus the sum of the second output's entries in column q over
    the source rows of the edges that end at n, started from zero and divided by the degree column's entry of n, plus
    the bias of column q. -/
theorem tail_apply (A7 A8 : (⟨S50000x128, .f32⟩ : BufTy).Contents (Elt Ideal)) (D : (⟨S50000x1, .f32⟩ : BufTy).Contents (Elt Ideal))
    (x6 : (⟨S128, .f32⟩ : BufTy).Contents (Elt Ideal)) (x7 x8 : (⟨S800000, .i32⟩ : BufTy).Contents (Elt Ideal)) (n : Fin 50000) (q : Fin 128) :
    tail A7 A8 D x6 x7 x8 (ix2 n q)
      = (A7 (ix2 n q) + Ideal.div ((0 : EReal) + ∑ e ∈ Cert.Sage.inEdges x8 n, A8 (ix2 (Cert.Sage.srcRow x7 e) q))
          (D (ix2 n (0 : Fin 1)))) + x6 (ix1 q) := by
  have hb : broadcastInDim S50000x128 ![0, 1] bcast_S1x128_S50000x128_0_1
      (broadcastInDim S1x128 ![1] bcast_S128_S1x128_1 x6) (ix2 n q) = x6 (ix1 q) :=
    (Cert.DenseRow.hostRowDown_apply _ bcast_S1x128_S50000x128_0_1 n q).trans
      (Cert.DenseRow.hostFlatRow_apply x6 bcast_S128_S1x128_1 q)
  have hd : broadcastInDim S50000x128 ![0, 1] bcast_S50000x1_S50000x128_0_1 D (ix2 n q) = D (ix2 n (0 : Fin 1)) :=
    Cert.HostRowOps.bcastColHost_apply D bcast_S50000x1_S50000x128_0_1 n q
  have hg : ∀ e : Fin 800000,
      Host.gather gather_S50000x128_S800000x1_S800000x128_1_0_n_n_0_1_1128 A8
        (broadcastInDim S800000x1 ![0] bcast_S800000_S800000x1_0
          (select (cmpi .slt x7 (broadcastInDim S800000 ![] bcast_S_S800000 (constantI S_ 32 0#32)))
            (addi x7 (broadcastInDim S800000 ![] bcast_S_S800000 (constantI S_ 32 50000#32))) x7)) (ix2 e q)
        = A8 (ix2 (Cert.Sage.srcRow x7 e) q) := fun e => gatherRows_apply A8 x7 e q
  unfold tail
  show (A7 (ix2 n q) + Ideal.div (Host.scatterAdd (F := Ideal) (φ := .f32) scatter_S50000x128_S800000x1_S800000x128_1_0_0_1
        (broadcastInDim S50000x128 ![] bcast_S_S50000x128 (constant (F := Ideal) S_ .f32 0x00000000#32))
        (broadcastInDim S800000x1 ![0] bcast_S800000_S800000x1_0 x8)
        (Host.gather gather_S50000x128_S800000x1_S800000x128_1_0_n_n_0_1_1128 A8
          (broadcastInDim S800000x1 ![0] bcast_S800000_S800000x1_0
            (select (cmpi .slt x7 (broadcastInDim S800000 ![] bcast_S_S800000 (constantI S_ 32 0#32)))
              (addi x7 (broadcastInDim S800000 ![] bcast_S_S800000 (constantI S_ 32 50000#32))) x7))) (ix2 n q))
      (broadcastInDim S50000x128 ![0, 1] bcast_S50000x1_S50000x128_0_1 D (ix2 n q)))
    + broadcastInDim S50000x128 ![0, 1] bcast_S1x128_S50000x128_0_1
        (broadcastInDim S1x128 ![1] bcast_S128_S1x128_1 x6) (ix2 n q) = _
  rw [hb, hd, scatterRows_apply]
  simp only [hg]

end Cert.KernelIdeal.Tail

end
-- ==== Proof.KernelRun.lean ====
/-
  The kernel program's run, with its result array named.

  The program computes two projected arrays in its region and then runs the host lines that follow it.  What the
  result buffer holds at the end is those lines, as one function, applied to the two arrays the region leaves, the
  degree column the earlier host lines left, and the bias and the two edge-index arguments as launched: the lines
  after the region read nothing else.  The run of the whole program is then restated with that value in the place
  of the result, beside the nine arguments, which end as they were launched.
-/
import proofs.«145372_j29901562315015_2_alg».proof.Proof.Gen.KernelIdeal.Frame
import proofs.«145372_j29901562315015_2_alg».proof.Proof.KernelTail
import Idealize.ShloMosaic.Lib.StableHlo.Run
import Idealize.ShloMosaic.PureOps.Ideal

set_option maxRecDepth 16384

noncomputable section

namespace Cert.KernelIdeal.RunValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The lines after the region, run from any buffer contents, leave in the result buffer their composition applied
    to the six buffers they read and no line of theirs writes. -/
theorem after_tail (Wv : Valuation τ sig (Elt Ideal)) :
    StableHlo.after hostOps1 Wv (Proc.devRef .tc main_v36)
      = Cert.KernelIdeal.Tail.tail (Wv (Proc.devRef .tc main_v20_0)) (Wv (Proc.devRef .tc main_v20_1))
          (Wv (Proc.devRef .tc main_v6)) (Wv (Proc.devRef .tc main_arg6)) (Wv (Proc.devRef .tc main_arg7))
          (Wv (Proc.devRef .tc main_arg8)) := by
  after_results_simp
  rfl

/-- The buffer contents the lines after the region start from: the region's arrays as the region leaves them, every
    other buffer as the region found it. -/
def W (c : Dev nD) : Valuation τ sig (Elt Ideal) :=
  Pipeline.withArrays spec0 c (V0 m c) fun w => (dats m 0 c).arrAt w cfg0.N

/-- The first output array, as the region leaves it. -/
theorem W_out7 (c : Dev nD) : W m c (Proc.devRef .tc main_v20_0) = (dats m 0 c).arrAt 7 cfg0.N :=
  Pipeline.withArrays_arr spec0 launch0.win.arr_inj c (V0 m c) _ 7

/-- The second output array, as the region leaves it. -/
theorem W_out8 (c : Dev nD) : W m c (Proc.devRef .tc main_v20_1) = (dats m 0 c).arrAt 8 cfg0.N :=
  Pipeline.withArrays_arr spec0 launch0.win.arr_inj c (V0 m c) _ 8

/-- The degree column is no array of the region: it is as the region found it. -/
theorem W_deg (c : Dev nD) : W m c (Proc.devRef .tc main_v6) = V m c main_v6 :=
  Pipeline.withArrays_of_ne spec0 c (V0 m c) _ main_v6 (by exact (by decide : ∀ w, Pipeline.arrRef spec0 w ≠ main_v6))

/-- The second bias is no array of the region: it is as launched. -/
theorem W_arg6 (c : Dev nD) : W m c (Proc.devRef .tc main_arg6) = m ((c : Thread nD τ).loc main_arg6) :=
  (Pipeline.withArrays_of_ne spec0 c (V0 m c) _ main_arg6
    (by exact (by decide : ∀ w, Pipeline.arrRef spec0 w ≠ main_arg6))).trans (V_main_arg6 m c)

/-- The source indices are no array of the region: they are as launched. -/
theorem W_arg7 (c : Dev nD) : W m c (Proc.devRef .tc main_arg7) = m ((c : Thread nD τ).loc main_arg7) :=
  (Pipeline.withArrays_of_ne spec0 c (V0 m c) _ main_arg7
    (by exact (by decide : ∀ w, Pipeline.arrRef spec0 w ≠ main_arg7))).trans (V_main_arg7 m c)

/-- The destination indices are no array of the region: they are as launched. -/
theorem W_arg8 (c : Dev nD) : W m c (Proc.devRef .tc main_arg8) = m ((c : Thread nD τ).loc main_arg8) :=
  (Pipeline.withArrays_of_ne spec0 c (V0 m c) _ main_arg8
    (by exact (by decide : ∀ w, Pipeline.arrRef spec0 w ≠ main_arg8))).trans (V_main_arg8 m c)

/-- THE RESULT BUFFER after the lines that follow the region: those lines applied to the region's two output arrays,
    the degree column and the three arguments they read. -/
theorem tail_eq (c : Dev nD) :
    Pipeline.afterTail₀ cfgs (dats m) 0 (V0 m) [hostOps1] c main_v36
      = Cert.KernelIdeal.Tail.tail ((dats m 0 c).arrAt 7 cfg0.N) ((dats m 0 c).arrAt 8 cfg0.N) (V m c main_v6)
          (m ((c : Thread nD τ).loc main_arg6)) (m ((c : Thread nD τ).loc main_arg7))
          (m ((c : Thread nD τ).loc main_arg8)) := by
  have h : Pipeline.afterTail₀ cfgs (dats m) 0 (V0 m) [hostOps1] c main_v36
      = StableHlo.after hostOps1 (W m c) (Proc.devRef .tc main_v36) := rfl
  rw [h, after_tail, W_out7, W_out8, W_deg, W_arg6, W_arg7, W_arg8]

/-- THE RUN, WITH THE RESULT NAMED.  At the compiled mesh, from any memory with zero counters, every weakly fair
    execution of the program terminates; the result buffer then holds the lines after the region applied to the
    region's two output arrays, the degree column and the three arguments they read, and the nine arguments are as
    launched. -/
theorem run_value (ρ : Dev nD → PrngReg) :
    θ_run defs (onTc (τ := τ) (main (F := Ideal))) ⟨m, fun _ => 0, ρ⟩ (fun r => ∀ c : Dev nD,
      r.2.mem ((c.tc : Thread nD τ).loc main_v36)
        = Cert.KernelIdeal.Tail.tail ((dats m 0 c).arrAt 7 cfg0.N) ((dats m 0 c).arrAt 8 cfg0.N) (V m c main_v6)
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v36 (Pipeline.mem_restRefs_of main_v36 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      (((h c).2 main_arg3 (Pipeline.mem_restRefs_of main_arg3 (by decide) (by decide))).trans (W_main_arg3 m (dats m) c)),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c))⟩)
    (run_main m ρ)

end Cert.KernelIdeal.RunValue

end
-- ==== Proof.FiniteInputs.lean ====
/-
  The precondition "every float argument is finite", decoded: every entry of each of the seven float
  arguments is a real number.

  The precondition is printed as a chain of tests, one per float argument: the absolute value of the array is
  compared, entry by entry, with +infinity (strictly below), the comparisons are folded by "and" over all
  axes starting from 1, and the seven folded bits are combined by "and". That the final bit is 1 says each
  fold is 1, hence each entry's comparison is 1, hence |x| < +infinity for every entry x. On the extended
  reals |x| = max x (-x), so x is neither +infinity nor -infinity: x is a real number.
-/
import proofs.«145372_j29901562315015_2_alg».proof.Defs
import proofs.«145372_j29901562315015_2_alg».proof.Proof.LibAggregateLaw
import Idealize.ShloMosaic.Lib.ReduceAll
import Idealize.ShloMosaic.Lib.ValueIdx
import Idealize.ShloMosaic.PureOps.Ideal.Laws

noncomputable section

namespace Cert.FiniteInputs

open Idealize.ShloMosaic Idealize.SL.Sem
open Cert.AggregateLaw

/-- The scalar shape has one index. -/
instance : Subsingleton (⟨0, ![]⟩ : Shape).Idx := ⟨fun _ _ => funext fun d => d.elim0⟩

/-- The f32 word 0x7F800000 denotes +infinity. -/
theorem ofBits_inf_f32 : Ideal.ofBits .f32 0x7F800000#32 = (⊤ : EReal) := by
  simp [Ideal.ofBits, Ideal.ieee]

/-- An extended real whose absolute value max x (-x) is strictly below +infinity is a real number. -/
theorem isReal_of_abs_lt_top {x : EReal} (h : max x (-x) < ⊤) : IsReal x := by
  obtain ⟨h1, h2⟩ := max_lt_iff.mp h
  refine isReal_of_ne (ne_of_lt h1) ?_
  intro hb
  rw [hb, EReal.neg_bot] at h2
  exact lt_irrefl _ h2

/-- A strict comparison of extended reals that came out 1 holds. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- The "and" of two one-bit arrays is 1 at an index exactly when both are. -/
theorem vec_andi_eq_one {s : Shape} (x y : IVec s 1) (i : s.Idx) :
    andi x y i = 1#1 ↔ x i = 1#1 ∧ y i = 1#1 := IntOp.andi_eq_one

/-- ONE ARGUMENT'S TEST: if the fold by "and" over all axes of "|a| < +infinity" is 1, every entry of a is a
    real number. -/
theorem real_of_all_lt_inf {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (h : Host.reduce IntOp.andi
        (cmpf .olt (Host.absf a) (broadcastInDim s ![] hb (constant (F := Ideal) (⟨0, ![]⟩ : Shape) .f32 0x7F800000#32)))
        (constantI (⟨0, ![]⟩ : Shape) 1 1#1) hr hu ValueIdx.ix0 = 1#1) :
    ∀ i, IsReal (a i) := by
  intro i
  have e := Host.reduce_andi_all _ _ hr hu ValueIdx.ix0 h i
  have e' : Ideal.cmp .olt (max (a i) (-(a i))) (Ideal.ofBits .f32 0x7F800000#32) = 1#1 := e
  rw [ofBits_inf_f32] at e'
  exact isReal_of_abs_lt_top (lt_of_cmp_olt e')

/-- THE PRECONDITION DECODED: on every device, every entry of each of the seven float arguments is a real
    number. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, Cert.AggregateLaw.IsReal (m ((c.tc : Thread Cert.KernelIdeal.nD Cert.KernelIdeal.τ).loc Cert.KernelIdeal.main_arg0) i))
      ∧ (∀ i, Cert.AggregateLaw.IsReal (m ((c.tc : Thread Cert.KernelIdeal.nD Cert.KernelIdeal.τ).loc Cert.KernelIdeal.main_arg1) i))
      ∧ (∀ i, Cert.AggregateLaw.IsReal (m ((c.tc : Thread Cert.KernelIdeal.nD Cert.KernelIdeal.τ).loc Cert.KernelIdeal.main_arg2) i))
      ∧ (∀ i, Cert.AggregateLaw.IsReal (m ((c.tc : Thread Cert.KernelIdeal.nD Cert.KernelIdeal.τ).loc Cert.KernelIdeal.main_arg3) i))
      ∧ (∀ i, Cert.AggregateLaw.IsReal (m ((c.tc : Thread Cert.KernelIdeal.nD Cert.KernelIdeal.τ).loc Cert.KernelIdeal.main_arg4) i))
      ∧ (∀ i, Cert.AggregateLaw.IsReal (m ((c.tc : Thread Cert.KernelIdeal.nD Cert.KernelIdeal.τ).loc Cert.KernelIdeal.main_arg5) i))
      ∧ (∀ i, Cert.AggregateLaw.IsReal (m ((c.tc : Thread Cert.KernelIdeal.nD Cert.KernelIdeal.τ).loc Cert.KernelIdeal.main_arg6) i)) := by
  have h0 := congrFun (h c) ValueIdx.ix0
  unfold Cert.Pre_finite_inputs.fn Cert.Pre_finite_inputs.fn_part1 at h0
  dsimp only at h0
  obtain ⟨h0, h6⟩ := (vec_andi_eq_one _ _ _).1 h0
  obtain ⟨h0, h5⟩ := (vec_andi_eq_one _ _ _).1 h0
  obtain ⟨h0, h4⟩ := (vec_andi_eq_one _ _ _).1 h0
  obtain ⟨h0, h3⟩ := (vec_andi_eq_one _ _ _).1 h0
  obtain ⟨h0, h2⟩ := (vec_andi_eq_one _ _ _).1 h0
  obtain ⟨h0, h1⟩ := (vec_andi_eq_one _ _ _).1 h0
  exact ⟨real_of_all_lt_inf _ _ _ _ h0, real_of_all_lt_inf _ _ _ _ h1, real_of_all_lt_inf _ _ _ _ h2,
    real_of_all_lt_inf _ _ _ _ h3, real_of_all_lt_inf _ _ _ _ h4, real_of_all_lt_inf _ _ _ _ h5,
    real_of_all_lt_inf _ _ _ _ h6⟩

end Cert.FiniteInputs

end
-- ==== Proof.Bridge.lean ====
/-
  The two programs compute one function of their arguments.

  Kernel side: the region leaves in its two output arrays the projections of every node's hidden row by the two layer-2
  weight matrices; the host lines after it add, to the first, the neighbour mean of the rows of the second, and the bias.
  Read at an entry (n, c) this is Sage.outKernel: the hidden row the region computes from the arrays it finds is
  Sage.hidden, because the neighbour-mean array holds Sage.nbr, the bias row holds b1 and the other arrays are arguments.
  Reference side: its result read at (n, c) is Sage.outRef.
  The precondition makes every float argument's entry a real number, and then Sage.outKernel = Sage.outRef: aggregating
  projected rows and projecting aggregated rows agree by linearity.
-/
import proofs.«145372_j29901562315015_2_alg».proof.Proof.KernelFinal
import proofs.«145372_j29901562315015_2_alg».proof.Proof.KernelHost
import proofs.«145372_j29901562315015_2_alg».proof.Proof.KernelTail
import proofs.«145372_j29901562315015_2_alg».proof.Proof.KernelRun
import proofs.«145372_j29901562315015_2_alg».proof.Proof.RefValue
import proofs.«145372_j29901562315015_2_alg».proof.Proof.FiniteInputs
import proofs.«145372_j29901562315015_2_alg».proof.Proof.Sage
import proofs.«145372_j29901562315015_2_alg».proof.Proof.Gen.ReferenceIdeal.Run
import proofs.«145372_j29901562315015_2_alg».proof.Proof.Gen.Pre_finite_inputs
import proofs.«145372_j29901562315015_2_alg».proof.Defs

set_option maxRecDepth 16384

noncomputable section

open scoped BigOperators

namespace Cert.Bridge

open Idealize.ShloMosaic Idealize.ShloMosaic.TcCoe Idealize.ShloMosaic.ValueIdx Idealize.SL.Sem
open Cert.KernelIdeal Cert.KernelIdeal.Gen

/-- The hidden row formed from arrays that ARE the arguments (the features and the two layer-1 weight matrices), the
    neighbour mean and the bias laid as a row, is the hidden row of the arguments. -/
theorem hid_of (A0 A1 : (⟨2, ![50000, 256]⟩ : Shape).Idx → EReal) (A2 A3 : (⟨2, ![256, 256]⟩ : Shape).Idx → EReal)
    (A4 : (⟨2, ![1, 256]⟩ : Shape).Idx → EReal) (src dst : IVec (⟨1, ![800000]⟩ : Shape) 32)
    (feat : (⟨2, ![50000, 256]⟩ : Shape).Idx → EReal) (ws1 wn1 : (⟨2, ![256, 256]⟩ : Shape).Idx → EReal)
    (b1 : (⟨1, ![256]⟩ : Shape).Idx → EReal)
    (h0 : A0 = feat) (h1 : ∀ (n : Fin 50000) (j : Fin 256), A1 (ix2 n j) = Cert.Sage.nbr src dst feat n j)
    (h2 : A2 = ws1) (h3 : A3 = wn1) (h4 : ∀ k : Fin 256, A4 (ix2 (0 : Fin 1) k) = b1 (ix1 k))
    (n : Fin 50000) (k : Fin 256) :
    Cert.KernelIdeal.Payload.hid A0 A1 A2 A3 A4 n k = Cert.Sage.hidden src dst feat ws1 wn1 b1 n k := by
  subst h0 h2 h3
  unfold Cert.KernelIdeal.Payload.hid Cert.Sage.hidden
  simp only [h1, h4]

/-- The two projected arrays, combined as the host lines after the region combine them, are the kernel's arrangement. -/
theorem out_of (A0 A1 : (⟨2, ![50000, 256]⟩ : Shape).Idx → EReal) (A2 A3 : (⟨2, ![256, 256]⟩ : Shape).Idx → EReal)
    (A4 : (⟨2, ![1, 256]⟩ : Shape).Idx → EReal) (W5 W6 : (⟨2, ![256, 128]⟩ : Shape).Idx → EReal)
    (src dst : IVec (⟨1, ![800000]⟩ : Shape) 32)
    (feat : (⟨2, ![50000, 256]⟩ : Shape).Idx → EReal) (ws1 wn1 : (⟨2, ![256, 256]⟩ : Shape).Idx → EReal)
    (b1 : (⟨1, ![256]⟩ : Shape).Idx → EReal) (ws2 wn2 : (⟨2, ![256, 128]⟩ : Shape).Idx → EReal)
    (b2 : (⟨1, ![128]⟩ : Shape).Idx → EReal)
    (h0 : A0 = feat) (h1 : ∀ (n : Fin 50000) (j : Fin 256), A1 (ix2 n j) = Cert.Sage.nbr src dst feat n j)
    (h2 : A2 = ws1) (h3 : A3 = wn1) (h4 : ∀ k : Fin 256, A4 (ix2 (0 : Fin 1) k) = b1 (ix1 k))
    (h5 : W5 = ws2) (h6 : W6 = wn2) (n : Fin 50000) (q : Fin 128) :
    (Cert.KernelIdeal.Blocks.proj A0 A1 A2 A3 A4 W5 (ix2 n q)
        + Ideal.div ((0 : EReal) + ∑ e ∈ Cert.Sage.inEdges dst n,
            Cert.KernelIdeal.Blocks.proj A0 A1 A2 A3 A4 W6 (ix2 (Cert.Sage.srcRow src e) q)) (Cert.Sage.degc dst n))
        + b2 (ix1 q)
      = Cert.Sage.outKernel src dst feat ws1 wn1 b1 ws2 wn2 b2 n q := by
  subst h5 h6
  unfold Cert.Sage.outKernel
  simp only [Cert.KernelIdeal.Blocks.proj_apply, hid_of A0 A1 A2 A3 A4 src dst feat ws1 wn1 b1 h0 h1 h2 h3 h4]

variable (m : (ℓ : Loc nD τ sig) → Buf (Elt Ideal) ℓ)

/-- THE KERNEL'S RESULT AT AN ENTRY is the kernel's arrangement of the two layers. -/
theorem kernel_entry (c : Dev nD) (n : Fin 50000) (q : Fin 128) :
    Cert.KernelIdeal.Tail.tail ((dats m 0 c).arrAt 7 cfg0.N) ((dats m 0 c).arrAt 8 cfg0.N) (V m c main_v6)
        (m ((c : Thread nD τ).loc main_arg6)) (m ((c : Thread nD τ).loc main_arg7)) (m ((c : Thread nD τ).loc main_arg8)) (ix2 n q)
      = Cert.Sage.outKernel (m ((c : Thread nD τ).loc main_arg7)) (m ((c : Thread nD τ).loc main_arg8))
          (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) n q := by
  rw [Cert.KernelIdeal.Tail.tail_apply, Cert.KernelIdeal.Blocks.final7, Cert.KernelIdeal.Blocks.final8,
    Cert.KernelIdeal.HostValue.V_deg_apply]
  exact out_of (V m c main_arg0) (V m c main_v18) (V m c main_arg1) (V m c main_arg2) (V m c main_v19)
    (V m c main_arg4) (V m c main_arg5) (m ((c : Thread nD τ).loc main_arg7)) (m ((c : Thread nD τ).loc main_arg8))
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
    (V_main_arg0 m c) (fun n j => Cert.KernelIdeal.HostValue.V_nbr_apply m c n j) (V_main_arg1 m c) (V_main_arg2 m c)
    (fun k => Cert.KernelIdeal.HostValue.V_bias_apply m c k) (V_main_arg4 m c) (V_main_arg5 m c) n q

/-- The function both programs end at: the reference's arrangement, as an array. -/
def result (c : Dev nD) : (⟨S50000x128, .f32⟩ : BufTy).Contents (Elt Ideal) :=
  fun i => Cert.Sage.outRef (m ((c : Thread nD τ).loc main_arg7)) (m ((c : Thread nD τ).loc main_arg8))
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

/-- Under the precondition the kernel's result array is that function. -/
theorem kernel_result (hpre : Cert.Pre_KernelIdeal m) (c : Dev nD) :
    Cert.KernelIdeal.Tail.tail ((dats m 0 c).arrAt 7 cfg0.N) ((dats m 0 c).arrAt 8 cfg0.N) (V m c main_v6)
        (m ((c : Thread nD τ).loc main_arg6)) (m ((c : Thread nD τ).loc main_arg7)) (m ((c : Thread nD τ).loc main_arg8))
      = result m c := by
  funext i
  obtain ⟨n, q, rfl⟩ : ∃ (n : Fin 50000) (q : Fin 128), i = ix2 n q := ⟨i 0, i 1, eq_ix2 i⟩
  rw [kernel_entry]
  obtain ⟨h0, h1, h2, h3, _, h5, _⟩ := Cert.FiniteInputs.real_of_pre m hpre c
  exact Cert.Sage.outKernel_eq_outRef h0 h1 h2 h3 h5 n q

/-- THE ALGEBRAIC CLAIM: from memories agreeing on the arguments both idealized programs end with the same result. -/
theorem algebraic : Cert.algebraic_KernelIdeal_ReferenceIdeal := by
  intro m ρ m' ρ' hpre hagree
  refine ⟨fun c => result m c, ?_, ?_⟩
  · exact (θ_run Cert.KernelIdeal.defs _ _).mono (fun r h c => ⟨(h c).1.trans (kernel_result m hpre c), (h c).2⟩)
      (Cert.KernelIdeal.RunValue.run_value m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v50_eq, e0, e1, e2, e3, e4, e5, e6, e7, e8]
    funext i
    obtain ⟨n, q, rfl⟩ : ∃ (n : Fin 50000) (q : Fin 128), i = ix2 n q := ⟨i 0, i 1, eq_ix2 i⟩
    exact Cert.ReferenceIdeal.RefValue.ref_apply _ _ _ _ _ _ _ _ _ n q

end Cert.Bridge

end
-- ==== Proof.lean ====
/-
  Two layers of neighbour-mean graph convolution (50000 nodes, 800000 edges, 256 -> 256 -> 128 features): a kernel that
  fuses the dense part of layer 1 with the two projections of layer 2, against the plain reference.

  Both programs gather source rows along the edges, add them into the destination rows and divide by the clamped degree.
  The kernel differs in the second layer only: it projects every hidden row by the neighbour weights BEFORE gathering and
  adding (128 columns travel instead of 256), where the reference gathers and adds hidden rows and projects afterwards.
  On the extended reals that exchange needs the entries to be real numbers (the infinities break distributivity); the
  precondition says every float argument is finite, so every hidden row is real and the clamped degree is a real at
  least one, and the two arrangements agree by linearity of finite sums (Proof/Sage.lean, Proof/LibAggregateLaw.lean).
  Out-of-range edge indices are harmless: both programs clamp the gathered row and drop a scattered update in the same way.

  The modules: Proof/KernelPayload.lean reads the kernel body's arithmetic at an entry; Proof/KernelBlocks.lean and
  Proof/KernelFinal.lean pass from the ten blocks to the two whole output arrays; Proof/KernelHostTerms.lean,
  Proof/KernelHost.lean, Proof/KernelTail.lean and Proof/KernelRun.lean read the host lines before and after the region;
  Proof/RefValue.lean reads the reference; Proof/FiniteInputs.lean turns the precondition into real entries;
  Proof/Bridge.lean joins the two sides.  The frames of the two kernel programs and the reference's run are generated.
-/
import proofs.«145372_j29901562315015_2_alg».proof.Defs
import proofs.«145372_j29901562315015_2_alg».proof.Proof.Gen.Kernel
import proofs.«145372_j29901562315015_2_alg».proof.Proof.Gen.Kernel.Skeleton
import proofs.«145372_j29901562315015_2_alg».proof.Proof.Gen.Kernel.Launch
import proofs.«145372_j29901562315015_2_alg».proof.Proof.Gen.Kernel.Points
import proofs.«145372_j29901562315015_2_alg».proof.Proof.Gen.Kernel.Frame
import proofs.«145372_j29901562315015_2_alg».proof.Proof.Gen.KernelIdeal
import proofs.«145372_j29901562315015_2_alg».proof.Proof.Gen.KernelIdeal.Skeleton
import proofs.«145372_j29901562315015_2_alg».proof.Proof.Gen.KernelIdeal.Launch
import proofs.«145372_j29901562315015_2_alg».proof.Proof.Gen.KernelIdeal.Points
import proofs.«145372_j29901562315015_2_alg».proof.Proof.Gen.KernelIdeal.Frame
import proofs.«145372_j29901562315015_2_alg».proof.Proof.Gen.ReferenceIdeal
import proofs.«145372_j29901562315015_2_alg».proof.Proof.Gen.Pre_finite_inputs
import proofs.«145372_j29901562315015_2_alg».proof.Proof.Gen.ReferenceIdeal.Run
import proofs.«145372_j29901562315015_2_alg».proof.Proof.Gen.ReferenceIdeal.Read
import proofs.«145372_j29901562315015_2_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel. -/
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, Cert.Bridge.algebraic⟩

end Cert.Proof

end
